-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S256 .f32) (main_arg7 : FVec F S256x128 .f32) (main_arg8 : FVec F S128 .f32) (main_arg9 : FVec F S128x64 .f32) (main_arg10 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x512 .f32) (main_arg1 : IVec S800000 32) (main_arg2 : IVec S800000 32) (main_arg3 : FVec F S512x256 .f32) (main_arg4 : FVec F S256 .f32) (main_arg5 : FVec F S256x256 .f32) (main_arg6 : FVec F S256 .f32) (main_arg7 : FVec F S256x128 .f32) (main_arg8 : FVec F S128 .f32) (main_arg9 : FVec F S128x64 .f32) (main_arg10 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S1x128 : Shape := ⟨2, ![1, 128]⟩
abbrev S1x64 : Shape := ⟨2, ![1, 64]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S800000x256 : Shape := ⟨2, ![800000, 256]⟩
abbrev S50000x128 : Shape := ⟨2, ![50000, 128]⟩
abbrev S2000x128 : Shape := ⟨2, ![2000, 128]⟩
abbrev S800000x128 : Shape := ⟨2, ![800000, 128]⟩
abbrev S50000x64 : Shape := ⟨2, ![50000, 64]⟩
abbrev S2000x64 : Shape := ⟨2, ![2000, 64]⟩
abbrev S800000x64 : Shape := ⟨2, ![800000, 64]⟩

abbrev nBuf : Space → Nat
  | .hbm => 103
  | .vmem => 46
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S512x256, .bf16⟩
  | .hbm, ⟨38, _⟩ => ⟨S256x256, .bf16⟩
  | .hbm, ⟨39, _⟩ => ⟨S256x128, .bf16⟩
  | .hbm, ⟨40, _⟩ => ⟨S128x64, .bf16⟩
  | .hbm, ⟨41, _⟩ => ⟨S1x256, .f32⟩
  | .hbm, ⟨42, _⟩ => ⟨S1x256, .f32⟩
  | .hbm, ⟨43, _⟩ => ⟨S1x128, .f32⟩
  | .hbm, ⟨44, _⟩ => ⟨S1x64, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S50000x256, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x256, .f32⟩
  | .hbm, ⟨69, _⟩ => ⟨S_, .f32⟩
  | .hbm, ⟨70, _⟩ => ⟨S50000x256, .f32⟩
  | .hbm, ⟨71, _⟩ => ⟨S800000x1, .i32⟩
  | .hbm, ⟨72, _⟩ => ⟨S50000x256, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S50000x128, .f32⟩
  | .hbm, ⟨88, _⟩ => ⟨S50000x64, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x64, .f32⟩
  | .hbm, ⟨98, _⟩ => ⟨S_, .f32⟩
  | .hbm, ⟨99, _⟩ => ⟨S50000x64, .f32⟩
  | .hbm, ⟨100, _⟩ => ⟨S800000x1, .i32⟩
  | .hbm, ⟨101, _⟩ => ⟨S50000x64, .f32⟩
  | .hbm, ⟨102, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x256, .bf16⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x1, .f32⟩
  | .local _ .vmem, ⟨13, _⟩ => ⟨S2000x1, .f32⟩
  | .local _ .vmem, ⟨14, _⟩ => ⟨S256x256, .bf16⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x1, .f32⟩
  | .local _ .vmem, ⟨20, _⟩ => ⟨S2000x1, .f32⟩
  | .local _ .vmem, ⟨21, _⟩ => ⟨S1x256, .f32⟩
  | .local _ .vmem, ⟨22, _⟩ => ⟨S2000x1, .f32⟩
  | .local _ .vmem, ⟨23, _⟩ => ⟨S2000x1, .f32⟩
  | .local _ .vmem, ⟨24, _⟩ => ⟨S256x128, .bf16⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .f32⟩
  | .local _ .vmem, ⟨30, _⟩ => ⟨S2000x1, .f32⟩
  | .local _ .vmem, ⟨31, _⟩ => ⟨S1x128, .f32⟩
  | .local _ .vmem, ⟨32, _⟩ => ⟨S2000x1, .f32⟩
  | .local _ .vmem, ⟨33, _⟩ => ⟨S2000x1, .f32⟩
  | .local _ .vmem, ⟨34, _⟩ => ⟨S128x64, .bf16⟩
  | .local _ .vmem, ⟨35, _⟩ => ⟨S2000x128, .f32⟩
  | .local _ .vmem, ⟨36, _⟩ => ⟨S2000x128, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x1, .f32⟩
  | .local _ .vmem, ⟨42, _⟩ => ⟨S2000x1, .f32⟩
  | .local _ .vmem, ⟨43, _⟩ => ⟨S1x64, .f32⟩
  | .local _ .vmem, ⟨44, _⟩ => ⟨S2000x64, .f32⟩
  | .local _ .vmem, ⟨45, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56_0 : Ref sig .tc := ⟨.hbm, 87, rfl⟩
abbrev main_v56_1 : Ref sig .tc := ⟨.hbm, 88, rfl⟩
abbrev main_c_14 : Ref sig .tc := ⟨.hbm, 89, rfl⟩
abbrev main_v57 : Ref sig .tc := ⟨.hbm, 90, rfl⟩
abbrev main_v58 : Ref sig .tc := ⟨.hbm, 91, rfl⟩
abbrev main_c_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  shapeCasts_S256_S1x256 : S256.ShapeCasts S1x256
  shapeCasts_S128_S1x128 : S128.ShapeCasts S1x128
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .bf16 = 32 ∨ (Rect.block (s := S256x128) S256x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .bf16 = 32 ∨ (Rect.block (s := S128x64) S128x64.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v56_1) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 133
  | .vmem => 0
  | .smem => 0
  | _ => 0

abbrev hbmTy0_0 (i : Nat) : BufTy := match i % 128 with
  | 0 => ⟨S50000x512, .f32⟩
  | 1 => ⟨S800000, .i32⟩
  | 2 => ⟨S800000, .i32⟩
  | 3 => ⟨S512x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x64, .f32⟩
  | 10 => ⟨S64, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x512, .f32⟩
  | 37 => ⟨S50000x512, .f32⟩
  | 38 => ⟨S50000x256, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x256, .f32⟩
  | 48 => ⟨S_, .f32⟩
  | 49 => ⟨S50000x256, .f32⟩
  | 50 => ⟨S800000x1, .i32⟩
  | 51 => ⟨S50000x256, .f32⟩
  | 52 => ⟨S50000x1, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S_, .f32⟩
  | 59 => ⟨S50000x256, .f32⟩
  | 60 => ⟨S50000x256, .f32⟩
  | 61 => ⟨S50000x1, .f32⟩
  | 62 => ⟨S50000x256, .f32⟩
  | 63 => ⟨S50000x256, .f32⟩
  | 64 => ⟨S50000x256, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S50000x1, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000x1, .f32⟩
  | 88 => ⟨S50000x256, .f32⟩
  | 89 => ⟨S50000x256, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x1, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S50000x1, .f32⟩
  | 111 => ⟨S50000x128, .f32⟩
  | 112 => ⟨S50000x128, .f32⟩
  | 113 => ⟨S50000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S50000x1, .f32⟩
  | _ => ⟨S50000x512, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call3_cst : Ref sig .tc := ⟨.hbm, 84, rfl⟩
abbrev main_call3_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_c_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_14 : Ref sig .tc := ⟨.hbm, 114, rfl⟩
abbrev main_v79 : Ref sig .tc := ⟨.hbm, 115, rfl⟩
abbrev main_v80 : Ref sig .tc := ⟨.hbm, 116, rfl⟩
abbrev main_c_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel program's run with its two results named.

  The program is five grid regions among six stretches of host operations. Its frame certificate folds the buffer
  contents through those eleven segments, from the launch memory `W0` to the contents at the return `W14`, and shows
  that every weakly fair execution ends with every unscoped buffer at `W14`. Read at the argument buffers that gives
  the frame; read at the two result buffers as well it gives the run below: the first result is what `W14` holds at
  the buffer of the third layer's biased aggregate, the second what it holds at the last region's output.
-/
import proofs.«175314_j64630667870457_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with both results at the return contents `W14` and the arguments as launched. -/
theorem run : θ_run defs (onTc (τ := τ) (main (F := F))) ⟨m, fun _ => 0, ρ⟩ (fun r => ∀ c : Dev nD,
      r.2.mem ((c.tc : Thread nD τ).loc main_v56_0) = W14 m ρ c (Proc.devRef .tc main_v56_0)
      ∧ r.2.mem ((c.tc : Thread nD τ).loc main_v67) = W14 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v56_0 (by decide)),
       h c _ (mem_uc main_v67 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Named

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibGcnRows.lean ====
/-
  The row operations of a graph-convolution layer on arrays of extended reals, and what a row block of each holds.

  For an array `a` of `R` rows, a column `s` of `R` scales and a row `b` of biases:
  * `scaleRows a s` multiplies row `r` of `a` by `s r`;
  * `biased a s b` is `a (r, k) · s r + b k`, the normalised aggregate plus the bias;
  * `positive a` is the entrywise maximum with zero.
  A layer's transform is `rowsByCols (scaleRows h s) w`, the product of the scaled rows with the weights.

  Every one of these is computed row by row: entry `(r, k)` of the result reads row `r` of the array operands only
  (and the whole bias row, the whole weight matrix). So a block of rows computed from the same block of rows of the
  operands is that block of rows of the whole result (`…_rows`). Nothing here needs an entry to be finite: no sum
  is re-associated against a product, a product of rows by columns is one finite sum in either arrangement.
-/
import Idealize.ShloMosaic.Lib.Pipeline.Value
import Idealize.ShloMosaic.Lib.ValueIdx
import Idealize.ShloMosaic.PureOps.Ideal.Laws
import proofs.«175314_j64630667870457_1_alg».proof.Proof.LibPlainProduct
import proofs.«175314_j64630667870457_1_alg».proof.Proof.LibLayout

noncomputable section

open scoped BigOperators

namespace Cert.GcnRows

open Idealize.ShloMosaic Idealize.ShloMosaic.ValueIdx Idealize.ShloMosaic.PlainProduct

variable {R B K N : ℕ}

/-- The zero of single precision, as the programs spell it. -/
abbrev zero32 : Ideal .f32 := FloatOps.ofBits .f32 0x00000000#32

/-- Row `r` multiplied by the `r`-th entry of the column `s`. -/
def scaleRows (a : FVec Ideal ⟨2, ![R, K]⟩ .f32) (s : FVec Ideal ⟨2, ![R, 1]⟩ .f32) : FVec Ideal ⟨2, ![R, K]⟩ .f32 :=
  fun j => a j * s (ix2 (n0 := R) (n1 := 1) (j 0) 0)

/-- Row `r` multiplied by the `r`-th entry of the column `s`, plus the bias row. -/
def biased (a : FVec Ideal ⟨2, ![R, K]⟩ .f32) (s : FVec Ideal ⟨2, ![R, 1]⟩ .f32) (b : FVec Ideal ⟨2, ![1, K]⟩ .f32) :
    FVec Ideal ⟨2, ![R, K]⟩ .f32 :=
  fun j => a j * s (ix2 (n0 := R) (n1 := 1) (j 0) 0) + b (ix2 (n0 := 1) (n1 := K) 0 (j 1))

/-- The entrywise maximum with zero. -/
def positive (a : FVec Ideal ⟨2, ![R, K]⟩ .f32) : FVec Ideal ⟨2, ![R, K]⟩ .f32 :=
  fun j => max (a j) zero32

/-- A row `[1, b]` broadcast to `[a, b]` reads, at `(i, j)`, the row's entry of column `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-! ## What the kernel bodies compute from their blocks -/

/-- The column broadcast along the rows, times the block: the scaled rows. -/
theorem mulf_column (a : FVec Ideal ⟨2, ![R, K]⟩ .f32) (s : FVec Ideal ⟨2, ![R, 1]⟩ .f32)
    (h1 : (⟨2, ![R, 1]⟩ : Shape).ShapeCasts ⟨2, ![R, 1]⟩) (h2 : (⟨2, ![R, 1]⟩ : Shape).Broadcasts ⟨2, ![R, K]⟩) :
    mulf a (broadcastTo ⟨2, ![R, K]⟩ (shapeCast ⟨2, ![R, 1]⟩ s h1) h2) = scaleRows a s := by
  funext j
  obtain ⟨p, q, rfl⟩ : ∃ (p : Fin R) (q : Fin K), j = ix2 p q := ⟨j 0, j 1, eq_ix2 j⟩
  rw [shapeCast_self, mulf_apply, Cert.LibLayout.broadcastTo_a1_ab_apply]
  rfl

/-- … and with the bias row broadcast along the columns added: the biased rows. -/
theorem addf_row (a : FVec Ideal ⟨2, ![R, K]⟩ .f32) (s : FVec Ideal ⟨2, ![R, 1]⟩ .f32) (b : FVec Ideal ⟨2, ![1, K]⟩ .f32)
    (h1 : (⟨2, ![R, 1]⟩ : Shape).ShapeCasts ⟨2, ![R, 1]⟩) (h2 : (⟨2, ![R, 1]⟩ : Shape).Broadcasts ⟨2, ![R, K]⟩)
    (h0 : (⟨2, ![R, K]⟩ : Shape).ShapeCasts ⟨2, ![R, K]⟩)
    (h3 : (⟨2, ![1, K]⟩ : Shape).ShapeCasts ⟨2, ![1, K]⟩) (h4 : (⟨2, ![1, K]⟩ : Shape).Broadcasts ⟨2, ![R, K]⟩) :
    addf (mulf (shapeCast ⟨2, ![R, K]⟩ a h0) (broadcastTo ⟨2, ![R, K]⟩ (shapeCast ⟨2, ![R, 1]⟩ s h1) h2))
        (broadcastTo ⟨2, ![R, K]⟩ (shapeCast ⟨2, ![1, K]⟩ b h3) h4) = biased a s b := by
  funext j
  obtain ⟨p, q, rfl⟩ : ∃ (p : Fin R) (q : Fin K), j = ix2 p q := ⟨j 0, j 1, eq_ix2 j⟩
  rw [shapeCast_self, shapeCast_self, shapeCast_self, addf_apply, mulf_apply, Cert.LibLayout.broadcastTo_a1_ab_apply,
    broadcastTo_1b_ab_apply]
  rfl

/-- The maximum with the zero scalar repeated over the block: the positive part. -/
theorem maximumf_zero (a : FVec Ideal ⟨2, ![R, K]⟩ .f32) :
    maximumf a (broadcast ⟨2, ![R, K]⟩ (Scalar.ofBits (F := Ideal) .f32 0x00000000#32)) = positive a := rfl

/-- The product of a block (its format narrowed, which changes nothing on the extended reals) with the weights, into
    the zero accumulator: the block's rows by the weights' columns. -/
theorem matmul_block {φ : FTy} (x : FVec Ideal ⟨2, ![R, K]⟩ .f32) (w : FVec Ideal ⟨2, ![K, N]⟩ φ) (hb : FTy.bf16.bits < FTy.f32.bits)
    (h3 : (⟨2, ![K, N]⟩ : Shape).ShapeCasts ⟨2, ![K, N]⟩) :
    matmul (DotDims.plain R K N) none (truncf .bf16 x hb) (shapeCast ⟨2, ![K, N]⟩ w h3) (constant ⟨2, ![R, N]⟩ .f32 0x00000000#32)
      = rowsByCols x w := by
  rw [shapeCast_self]
  exact matmul_zero_plain none (truncf .bf16 x hb) w

/-! ## Row blocks -/

section Rows

variable (e : Fin B → Fin R)

theorem scaleRows_rows (a : FVec Ideal ⟨2, ![R, K]⟩ .f32) (s : FVec Ideal ⟨2, ![R, 1]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (r : Fin B) (k : Fin K) :
    scaleRows ab sb (ix2 (n0 := B) (n1 := K) r k) = scaleRows a s (ix2 (n0 := R) (n1 := K) (e r) k) :=
  congrArg₂ (· * ·) (ha r k) (hs r)

theorem biased_rows (a : FVec Ideal ⟨2, ![R, K]⟩ .f32) (s : FVec Ideal ⟨2, ![R, 1]⟩ .f32) (b : FVec Ideal ⟨2, ![1, K]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (r : Fin B) (k : Fin K) :
    biased ab sb b (ix2 (n0 := B) (n1 := K) r k) = biased a s b (ix2 (n0 := R) (n1 := K) (e r) k) :=
  congrArg₂ (· + ·) (congrArg₂ (· * ·) (ha r k) (hs r)) rfl

theorem positive_rows (a : FVec Ideal ⟨2, ![R, K]⟩ .f32) (ab : FVec Ideal ⟨2, ![B, K]⟩ .f32)
    (ha : ∀ (r : Fin B) (k : Fin K), ab (ix2 (n0 := B) (n1 := K) r k) = a (ix2 (n0 := R) (n1 := K) (e r) k))
    (r : Fin B) (k : Fin K) :
    positive ab (ix2 (n0 := B) (n1 := K) r k) = positive a (ix2 (n0 := R) (n1 := K) (e r) k) :=
  congrArg (max · zero32) (ha r k)

/-- The same three laws read at any index `j` of the block: its row is `j 0`, its column `j 1`. -/
theorem scaleRows_block (a : FVec Ideal ⟨2, ![R, K]⟩ .f32) (s : FVec Ideal ⟨2, ![R, 1]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (j : (⟨2, ![B, K]⟩ : Shape).Idx) :
    scaleRows ab sb j = scaleRows a s (ix2 (n0 := R) (n1 := K) (e (j 0)) (j 1)) :=
  (congrArg (scaleRows ab sb) (eq_ix2 j)).trans (scaleRows_rows e a s ab sb ha hs (j 0) (j 1))

theorem biased_block (a : FVec Ideal ⟨2, ![R, K]⟩ .f32) (s : FVec Ideal ⟨2, ![R, 1]⟩ .f32) (b : FVec Ideal ⟨2, ![1, K]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (j : (⟨2, ![B, K]⟩ : Shape).Idx) :
    biased ab sb b j = biased a s b (ix2 (n0 := R) (n1 := K) (e (j 0)) (j 1)) :=
  (congrArg (biased ab sb b) (eq_ix2 j)).trans (biased_rows e a s b ab sb ha hs (j 0) (j 1))

end Rows

/-! ## A vector as a column, a vector as a row -/

/-- The vector `v` as the column `[n, 1]`. -/
def col {n : ℕ} (v : FVec Ideal ⟨1, ![n]⟩ .f32) : FVec Ideal ⟨2, ![n, 1]⟩ .f32 := fun i => v (ix1 (n := n) (i 0))

/-- The vector `b` as the row `[1, k]`. -/
def rowv {k : ℕ} (b : FVec Ideal ⟨1, ![k]⟩ .f32) : FVec Ideal ⟨2, ![1, k]⟩ .f32 := fun i => b (ix1 (n := k) (i 1))

end Cert.GcnRows

end
-- ==== Proof.KBlocks.lean ====
/-
  Row blocks: the grid of every region is 25 points, point `t` holding rows `2000·t … 2000·t + 1999` of 50000.
-/
import Idealize.ShloMosaic.Lib.ValueIdx

namespace Cert.KernelIdeal.Layers

/-- The two coordinates of a block's origin are zero. -/
theorem origin2 : (![0, 0] : Fin 2 → Nat) = fun _ => 0 := funext fun a => by fin_cases a <;> rfl

/-- Row `r` of block `t`: row `2000·t + r` of the array. -/
def row (t : ℕ) (ht : t < 25) (r : Fin 2000) : Fin 50000 := ⟨t * 2000 + r.val, by have := r.isLt; omega⟩

end Cert.KernelIdeal.Layers
-- ==== Proof.Region0.lean ====
/-
  Region 0: the input transform of layer one, a block of 2000 node rows per grid point.

  Grid point `t` (of 25) fetches rows `2000·t … 2000·t + 1999` of each row-blocked operand (the aggregate and the
  degree-scale columns) and the whole of each shared operand (the bias row, the weights). What it computes for a row
  uses that row of the row-blocked operands only, so the rows it writes back are the same rows of the operation done on
  the whole arrays; the 25 blocks tile the 50000 rows, so after the region each output array holds that whole result.
-/
import proofs.«175314_j64630667870457_1_alg».proof.Proof.Gen.KernelIdeal.Frame
import proofs.«175314_j64630667870457_1_alg».proof.Proof.LibGcnRows
import proofs.«175314_j64630667870457_1_alg».proof.Proof.KBlocks

set_option maxRecDepth 16384

noncomputable section

namespace Cert.KernelIdeal.Layers

open Cert.KernelIdeal Cert.KernelIdeal.Gen
open Idealize.ShloMosaic Idealize.ShloMosaic.TcCoe Idealize.ShloMosaic.ValueIdx Idealize.ShloMosaic.PlainProduct Cert.GcnRows
open Idealize.SL.Sem
open Idealize.ShloMosaic.Pipeline (Dat)

variable (V : (c : Dev nD) → (b : Ref sig .tc) → Buf (Elt Ideal) ((c : Thread nD τ).loc b))

/-- What the body computes for output window 3 from its blocks. -/
theorem body0_3 (x0 : Vec Ideal S2000x512 .f32) (x1 : Vec Ideal S2000x1 .f32) (x2 : Vec Ideal S512x256 .bf16) :
    k0_pay1 x0 x1 x2 = rowsByCols (φ₂ := .bf16) (scaleRows (R := 2000) (K := 512) x0 x1) x2 := by
  unfold k0_pay1
  dsimp only
  rw [mulf_column]
  exact matmul_block _ _ _ _

/-- The index maps over the grid: a row-blocked window is at block `(t, 0)`, a shared one at `(0, 0)`. -/
theorem maps0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 ∧ t.val < 25 :=
  (by decide +kernel : ∀ t : Fin grid0.N, _)

/-- The array the region leaves in output window 3. -/
abbrev whole0_3 (c : Dev nD) : S50000x256.Idx → Elt Ideal .f32 :=
  rowsByCols (φ₂ := .bf16) (scaleRows (R := 50000) (K := 512) (V c main_arg0) (V c main_v10)) (V c main_v15)

set_option maxHeartbeats 3200000 in
theorem flushed0_3 (c : Dev nD) (t : Fin cfg0.N) :
    (dat0 V c).flushed 3 t = ((cfg0.win 3).blk t).view.read (Elt Ideal) (whole0_3 V c) := by
  show (cfg0.win 3).cut (grid0.coords t) ((dat0 V c).after 3 t) = _
  rw [after0_3]
  unfold out0_3
  rw [View.canon_unit_zero origin2]
  simp only [View.ld_unit_zero (S := S2000x512) origin2, View.ld_unit_zero (S := S2000x1) origin2, View.ld_unit_zero (S := S512x256) origin2]
  rw [body0_3]
  obtain ⟨e00, e01, e10, e11, e20, e21, e30, e31, ht⟩ := maps0 t
  funext j
  have hout : ((cfg0.win 3).blk t).view.emb j = ix2 (n0 := 50000) (n1 := 256) (row t.val ht (j 0)) (j 1) := by
    funext a; apply Fin.ext
    match a with
    | ⟨0, _⟩ => show win0_3.index t (0 : Fin 2) * 2000 + 1 * (j 0).val = t.val * 2000 + (j 0).val; omega
    | ⟨1, _⟩ => show win0_3.index t (1 : Fin 2) * 256 + 1 * (j 1).val = (j 1).val; omega
  have hx0 : ∀ (r : Fin 2000) (k : Fin 512), iblk0 V c 0 t (ix2 (n0 := 2000) (n1 := 512) r k)
      = V c main_arg0 (ix2 (n0 := 50000) (n1 := 512) (row t.val ht r) k) := by
    intro r k
    show V c main_arg0 (((cfg0.win 0).blk t).view.emb (ix2 (n0 := 2000) (n1 := 512) r k)) = _
    refine congrArg _ ?_
    funext a; apply Fin.ext
    match a with
    | ⟨0, _⟩ => show win0_0.index t (0 : Fin 2) * 2000 + 1 * r.val = t.val * 2000 + r.val; omega
    | ⟨1, _⟩ => show win0_0.index t (1 : Fin 2) * 512 + 1 * k.val = k.val; omega
  have hx1 : ∀ r : Fin 2000, iblk0 V c 1 t (ix2 (n0 := 2000) (n1 := 1) r 0)
      = V c main_v10 (ix2 (n0 := 50000) (n1 := 1) (row t.val ht r) 0) := by
    intro r
    show V c main_v10 (((cfg0.win 1).blk t).view.emb (ix2 (n0 := 2000) (n1 := 1) r 0)) = _
    refine congrArg _ ?_
    funext a; apply Fin.ext
    match a with
    | ⟨0, _⟩ => show win0_1.index t (0 : Fin 2) * 2000 + 1 * r.val = t.val * 2000 + r.val; omega
    | ⟨1, _⟩ => show win0_1.index t (1 : Fin 2) * 1 + 1 * 0 = 0; omega
  have hx2 : iblk0 V c 2 t = V c main_v15 := by
    funext y
    show V c main_v15 (((cfg0.win 2).blk t).view.emb y) = V c main_v15 y
    refine congrArg _ ?_
    funext a; apply Fin.ext
    match a with
    | ⟨0, _⟩ => show win0_2.index t (0 : Fin 2) * 512 + 1 * (y 0).val = (y 0).val; omega
    | ⟨1, _⟩ => show win0_2.index t (1 : Fin 2) * 256 + 1 * (y 1).val = (y 1).val; omega
  show (rowsByCols (φ₂ := .bf16) (scaleRows (R := 2000) (K := 512) (iblk0 V c 0 t) (iblk0 V c 1 t)) (iblk0 V c 2 t)) j = whole0_3 V c (((cfg0.win 3).blk t).view.emb j)
  rw [hout, hx2]
  exact (rowsByCols_rows _ _ _ (row t.val ht) (fun r k => scaleRows_rows (row t.val ht) _ _ _ _ hx0 hx1 r k) j)

/-- An index of the output array is in point `t`'s block iff each coordinate is in the block's range. -/
theorem mem_blk0_3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v23).slice (win0_3.rect t)).set ↔ _
  rw [View.set_slice_whole, Rect.mem_set_unit]
  exact Iff.rfl

/-- Every block of rows is some point's. -/
theorem onto0_3 : ∀ q : Fin 25, ∃ t : Fin cfg0.N, win0_3.index t = ![q.val, 0] :=
  (by decide +kernel : ∀ q : Fin 25, ∃ t : Fin grid0.N, win0_3.index t = ![q.val, 0])

theorem cover0_3 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := onto0_3 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- After the region, output window 3's array holds the whole-array result. -/
theorem final0_3 (c : Dev nD) : (dat0 V c).arrAt 3 cfg0.N = whole0_3 V c :=
  (dat0 V c).arrAt_eq_of_cover 3 (whole0_3 V c) (fun t _ => flushed0_3 V c t) (cover0_3)

end Cert.KernelIdeal.Layers

end
-- ==== Proof.Region1.lean ====
/-
  Region 1: layer one's bias and positive part, then layer two's transform, a block of 2000 node rows per grid point.

  Grid point `t` (of 25) fetches rows `2000·t … 2000·t + 1999` of each row-blocked operand (the aggregate and the
  degree-scale columns) and the whole of each shared operand (the bias row, the weights). What it computes for a row
  uses that row of the row-blocked operands only, so the rows it writes back are the same rows of the operation done on
  the whole arrays; the 25 blocks tile the 50000 rows, so after the region each output array holds that whole result.
-/
import proofs.«175314_j64630667870457_1_alg».proof.Proof.Gen.KernelIdeal.Frame
import proofs.«175314_j64630667870457_1_alg».proof.Proof.LibGcnRows
import proofs.«175314_j64630667870457_1_alg».proof.Proof.KBlocks

set_option maxRecDepth 16384

noncomputable section

namespace Cert.KernelIdeal.Layers

open Cert.KernelIdeal Cert.KernelIdeal.Gen
open Idealize.ShloMosaic Idealize.ShloMosaic.TcCoe Idealize.ShloMosaic.ValueIdx Idealize.ShloMosaic.PlainProduct Cert.GcnRows
open Idealize.SL.Sem
open Idealize.ShloMosaic.Pipeline (Dat)

variable (V : (c : Dev nD) → (b : Ref sig .tc) → Buf (Elt Ideal) ((c : Thread nD τ).loc b))

/-- What the body computes for output window 5 from its blocks. -/
theorem body1_5 (x0 : Vec Ideal S2000x256 .f32) (x1 : Vec Ideal S2000x1 .f32) (x2 : Vec Ideal S1x256 .f32) (x3 : Vec Ideal S2000x1 .f32) (x4 : Vec Ideal S256x256 .bf16) :
    k1_pay1 x0 x1 x2 x3 x4 = rowsByCols (φ₂ := .bf16) (scaleRows (R := 2000) (K := 256) (positive (R := 2000) (K := 256) (biased (R := 2000) (K := 256) x0 x1 x2)) x3) x4 := by
  unfold k1_pay1
  dsimp only
  rw [addf_row, maximumf_zero, mulf_column]
  exact matmul_block _ _ _ _

/-- The index maps over the grid: a row-blocked window is at block `(t, 0)`, a shared one at `(0, 0)`. -/
theorem maps1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 ∧ t.val < 25 :=
  (by decide +kernel : ∀ t : Fin grid1.N, _)

/-- The array the region leaves in output window 5. -/
abbrev whole1_5 (c : Dev nD) : S50000x256.Idx → Elt Ideal .f32 :=
  rowsByCols (φ₂ := .bf16) (scaleRows (R := 50000) (K := 256) (positive (R := 50000) (K := 256) (biased (R := 50000) (K := 256) (V c main_v33) (V c main_v14) (V c main_v19))) (V c main_v10)) (V c main_v16)

set_option maxHeartbeats 3200000 in
theorem flushed1_5 (c : Dev nD) (t : Fin cfg1.N) :
    (dat1 V c).flushed 5 t = ((cfg1.win 5).blk t).view.read (Elt Ideal) (whole1_5 V c) := by
  show (cfg1.win 5).cut (grid1.coords t) ((dat1 V c).after 5 t) = _
  rw [after1_5]
  unfold out1_5
  rw [View.canon_unit_zero origin2]
  simp only [View.ld_unit_zero (S := S2000x256) origin2, View.ld_unit_zero (S := S2000x1) origin2, View.ld_unit_zero (S := S1x256) origin2, View.ld_unit_zero (S := S256x256) origin2]
  rw [body1_5]
  obtain ⟨e00, e01, e10, e11, e20, e21, e30, e31, e40, e41, e50, e51, ht⟩ := maps1 t
  funext j
  have hout : ((cfg1.win 5).blk t).view.emb j = ix2 (n0 := 50000) (n1 := 256) (row t.val ht (j 0)) (j 1) := by
    funext a; apply Fin.ext
    match a with
    | ⟨0, _⟩ => show win1_5.index t (0 : Fin 2) * 2000 + 1 * (j 0).val = t.val * 2000 + (j 0).val; omega
    | ⟨1, _⟩ => show win1_5.index t (1 : Fin 2) * 256 + 1 * (j 1).val = (j 1).val; omega
  have hx0 : ∀ (r : Fin 2000) (k : Fin 256), iblk1 V c 0 t (ix2 (n0 := 2000) (n1 := 256) r k)
      = V c main_v33 (ix2 (n0 := 50000) (n1 := 256) (row t.val ht r) k) := by
    intro r k
    show V c main_v33 (((cfg1.win 0).blk t).view.emb (ix2 (n0 := 2000) (n1 := 256) r k)) = _
    refine congrArg _ ?_
    funext a; apply Fin.ext
    match a with
    | ⟨0, _⟩ => show win1_0.index t (0 : Fin 2) * 2000 + 1 * r.val = t.val * 2000 + r.val; omega
    | ⟨1, _⟩ => show win1_0.index t (1 : Fin 2) * 256 + 1 * k.val = k.val; omega
  have hx1 : ∀ r : Fin 2000, iblk1 V c 1 t (ix2 (n0 := 2000) (n1 := 1) r 0)
      = V c main_v14 (ix2 (n0 := 50000) (n1 := 1) (row t.val ht r) 0) := by
    intro r
    show V c main_v14 (((cfg1.win 1).blk t).view.emb (ix2 (n0 := 2000) (n1 := 1) r 0)) = _
    refine congrArg _ ?_
    funext a; apply Fin.ext
    match a with
    | ⟨0, _⟩ => show win1_1.index t (0 : Fin 2) * 2000 + 1 * r.val = t.val * 2000 + r.val; omega
    | ⟨1, _⟩ => show win1_1.index t (1 : Fin 2) * 1 + 1 * 0 = 0; omega
  have hx2 : iblk1 V c 2 t = V c main_v19 := by
    funext y
    show V c main_v19 (((cfg1.win 2).blk t).view.emb y) = V c main_v19 y
    refine congrArg _ ?_
    funext a; apply Fin.ext
    match a with
    | ⟨0, _⟩ => show win1_2.index t (0 : Fin 2) * 1 + 1 * (y 0).val = (y 0).val; omega
    | ⟨1, _⟩ => show win1_2.index t (1 : Fin 2) * 256 + 1 * (y 1).val = (y 1).val; omega
  have hx3 : ∀ r : Fin 2000, iblk1 V c 3 t (ix2 (n0 := 2000) (n1 := 1) r 0)
      = V c main_v10 (ix2 (n0 := 50000) (n1 := 1) (row t.val ht r) 0) := by
    intro r
    show V c main_v10 (((cfg1.win 3).blk t).view.emb (ix2 (n0 := 2000) (n1 := 1) r 0)) = _
    refine congrArg _ ?_
    funext a; apply Fin.ext
    match a with
    | ⟨0, _⟩ => show win1_3.index t (0 : Fin 2) * 2000 + 1 * r.val = t.val * 2000 + r.val; omega
    | ⟨1, _⟩ => show win1_3.index t (1 : Fin 2) * 1 + 1 * 0 = 0; omega
  have hx4 : iblk1 V c 4 t = V c main_v16 := by
    funext y
    show V c main_v16 (((cfg1.win 4).blk t).view.emb y) = V c main_v16 y
    refine congrArg _ ?_
    funext a; apply Fin.ext
    match a with
    | ⟨0, _⟩ => show win1_4.index t (0 : Fin 2) * 256 + 1 * (y 0).val = (y 0).val; omega
    | ⟨1, _⟩ => show win1_4.index t (1 : Fin 2) * 256 + 1 * (y 1).val = (y 1).val; omega
  show (rowsByCols (φ₂ := .bf16) (scaleRows (R := 2000) (K := 256) (positive (R := 2000) (K := 256) (biased (R := 2000) (K := 256) (iblk1 V c 0 t) (iblk1 V c 1 t) (iblk1 V c 2 t))) (iblk1 V c 3 t)) (iblk1 V c 4 t)) j = whole1_5 V c (((cfg1.win 5).blk t).view.emb j)
  rw [hout, hx2, hx4]
  exact (rowsByCols_rows _ _ _ (row t.val ht) (fun r k => scaleRows_rows (row t.val ht) _ _ _ _ (fun r k => positive_rows (row t.val ht) _ _ (fun r k => biased_rows (row t.val ht) _ _ _ _ _ hx0 hx1 r k) r k) hx3 r k) j)

/-- An index of the output array is in point `t`'s block iff each coordinate is in the block's range. -/
theorem mem_blk1_5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v34).slice (win1_5.rect t)).set ↔ _
  rw [View.set_slice_whole, Rect.mem_set_unit]
  exact Iff.rfl

/-- Every block of rows is some point's. -/
theorem onto1_5 : ∀ q : Fin 25, ∃ t : Fin cfg1.N, win1_5.index t = ![q.val, 0] :=
  (by decide +kernel : ∀ q : Fin 25, ∃ t : Fin grid1.N, win1_5.index t = ![q.val, 0])

theorem cover1_5 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := onto1_5 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- After the region, output window 5's array holds the whole-array result. -/
theorem final1_5 (c : Dev nD) : (dat1 V c).arrAt 5 cfg1.N = whole1_5 V c :=
  (dat1 V c).arrAt_eq_of_cover 5 (whole1_5 V c) (fun t _ => flushed1_5 V c t) (cover1_5)

end Cert.KernelIdeal.Layers

end
-- ==== Proof.Region2.lean ====
/-
  Region 2: layer two's bias and positive part, then layer three's transform, a block of 2000 node rows per grid point.

  Grid point `t` (of 25) fetches rows `2000·t … 2000·t + 1999` of each row-blocked operand (the aggregate and the
  degree-scale columns) and the whole of each shared operand (the bias row, the weights). What it computes for a row
  uses that row of the row-blocked operands only, so the rows it writes back are the same rows of the operation done on
  the whole arrays; the 25 blocks tile the 50000 rows, so after the region each output array holds that whole result.
-/
import proofs.«175314_j64630667870457_1_alg».proof.Proof.Gen.KernelIdeal.Frame
import proofs.«175314_j64630667870457_1_alg».proof.Proof.LibGcnRows
import proofs.«175314_j64630667870457_1_alg».proof.Proof.KBlocks

set_option maxRecDepth 16384

noncomputable section

namespace Cert.KernelIdeal.Layers

open Cert.KernelIdeal Cert.KernelIdeal.Gen
open Idealize.ShloMosaic Idealize.ShloMosaic.TcCoe Idealize.ShloMosaic.ValueIdx Idealize.ShloMosaic.PlainProduct Cert.GcnRows
open Idealize.SL.Sem
open Idealize.ShloMosaic.Pipeline (Dat)

variable (V : (c : Dev nD) → (b : Ref sig .tc) → Buf (Elt Ideal) ((c : Thread nD τ).loc b))

/-- What the body computes for output window 5 from its blocks. -/
theorem body2_5 (x0 : Vec Ideal S2000x256 .f32) (x1 : Vec Ideal S2000x1 .f32) (x2 : Vec Ideal S1x256 .f32) (x3 : Vec Ideal S2000x1 .f32) (x4 : Vec Ideal S256x128 .bf16) :
    k2_pay1 x0 x1 x2 x3 x4 = rowsByCols (φ₂ := .bf16) (scaleRows (R := 2000) (K := 256) (positive (R := 2000) (K := 256) (biased (R := 2000) (K := 256) x0 x1 x2)) x3) x4 := by
  unfold k2_pay1
  dsimp only
  rw [addf_row, maximumf_zero, mulf_column]
  exact matmul_block _ _ _ _

/-- The index maps over the grid: a row-blocked window is at block `(t, 0)`, a shared one at `(0, 0)`. -/
theorem maps2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 ∧ t.val < 25 :=
  (by decide +kernel : ∀ t : Fin grid2.N, _)

/-- The array the region leaves in output window 5. -/
abbrev whole2_5 (c : Dev nD) : S50000x128.Idx → Elt Ideal .f32 :=
  rowsByCols (φ₂ := .bf16) (scaleRows (R := 50000) (K := 256) (positive (R := 50000) (K := 256) (biased (R := 50000) (K := 256) (V c main_v44) (V c main_v14) (V c main_v20))) (V c main_v10)) (V c main_v17)

set_option maxHeartbeats 3200000 in
theorem flushed2_5 (c : Dev nD) (t : Fin cfg2.N) :
    (dat2 V c).flushed 5 t = ((cfg2.win 5).blk t).view.read (Elt Ideal) (whole2_5 V c) := by
  show (cfg2.win 5).cut (grid2.coords t) ((dat2 V c).after 5 t) = _
  rw [after2_5]
  unfold out2_5
  rw [View.canon_unit_zero origin2]
  simp only [View.ld_unit_zero (S := S2000x256) origin2, View.ld_unit_zero (S := S2000x1) origin2, View.ld_unit_zero (S := S1x256) origin2, View.ld_unit_zero (S := S256x128) origin2]
  rw [body2_5]
  obtain ⟨e00, e01, e10, e11, e20, e21, e30, e31, e40, e41, e50, e51, ht⟩ := maps2 t
  funext j
  have hout : ((cfg2.win 5).blk t).view.emb j = ix2 (n0 := 50000) (n1 := 128) (row t.val ht (j 0)) (j 1) := by
    funext a; apply Fin.ext
    match a with
    | ⟨0, _⟩ => show win2_5.index t (0 : Fin 2) * 2000 + 1 * (j 0).val = t.val * 2000 + (j 0).val; omega
    | ⟨1, _⟩ => show win2_5.index t (1 : Fin 2) * 128 + 1 * (j 1).val = (j 1).val; omega
  have hx0 : ∀ (r : Fin 2000) (k : Fin 256), iblk2 V c 0 t (ix2 (n0 := 2000) (n1 := 256) r k)
      = V c main_v44 (ix2 (n0 := 50000) (n1 := 256) (row t.val ht r) k) := by
    intro r k
    show V c main_v44 (((cfg2.win 0).blk t).view.emb (ix2 (n0 := 2000) (n1 := 256) r k)) = _
    refine congrArg _ ?_
    funext a; apply Fin.ext
    match a with
    | ⟨0, _⟩ => show win2_0.index t (0 : Fin 2) * 2000 + 1 * r.val = t.val * 2000 + r.val; omega
    | ⟨1, _⟩ => show win2_0.index t (1 : Fin 2) * 256 + 1 * k.val = k.val; omega
  have hx1 : ∀ r : Fin 2000, iblk2 V c 1 t (ix2 (n0 := 2000) (n1 := 1) r 0)
      = V c main_v14 (ix2 (n0 := 50000) (n1 := 1) (row t.val ht r) 0) := by
    intro r
    show V c main_v14 (((cfg2.win 1).blk t).view.emb (ix2 (n0 := 2000) (n1 := 1) r 0)) = _
    refine congrArg _ ?_
    funext a; apply Fin.ext
    match a with
    | ⟨0, _⟩ => show win2_1.index t (0 : Fin 2) * 2000 + 1 * r.val = t.val * 2000 + r.val; omega
    | ⟨1, _⟩ => show win2_1.index t (1 : Fin 2) * 1 + 1 * 0 = 0; omega
  have hx2 : iblk2 V c 2 t = V c main_v20 := by
    funext y
    show V c main_v20 (((cfg2.win 2).blk t).view.emb y) = V c main_v20 y
    refine congrArg _ ?_
    funext a; apply Fin.ext
    match a with
    | ⟨0, _⟩ => show win2_2.index t (0 : Fin 2) * 1 + 1 * (y 0).val = (y 0).val; omega
    | ⟨1, _⟩ => show win2_2.index t (1 : Fin 2) * 256 + 1 * (y 1).val = (y 1).val; omega
  have hx3 : ∀ r : Fin 2000, iblk2 V c 3 t (ix2 (n0 := 2000) (n1 := 1) r 0)
      = V c main_v10 (ix2 (n0 := 50000) (n1 := 1) (row t.val ht r) 0) := by
    intro r
    show V c main_v10 (((cfg2.win 3).blk t).view.emb (ix2 (n0 := 2000) (n1 := 1) r 0)) = _
    refine congrArg _ ?_
    funext a; apply Fin.ext
    match a with
    | ⟨0, _⟩ => show win2_3.index t (0 : Fin 2) * 2000 + 1 * r.val = t.val * 2000 + r.val; omega
    | ⟨1, _⟩ => show win2_3.index t (1 : Fin 2) * 1 + 1 * 0 = 0; omega
  have hx4 : iblk2 V c 4 t = V c main_v17 := by
    funext y
    show V c main_v17 (((cfg2.win 4).blk t).view.emb y) = V c main_v17 y
    refine congrArg _ ?_
    funext a; apply Fin.ext
    match a with
    | ⟨0, _⟩ => show win2_4.index t (0 : Fin 2) * 256 + 1 * (y 0).val = (y 0).val; omega
    | ⟨1, _⟩ => show win2_4.index t (1 : Fin 2) * 128 + 1 * (y 1).val = (y 1).val; omega
  show (rowsByCols (φ₂ := .bf16) (scaleRows (R := 2000) (K := 256) (positive (R := 2000) (K := 256) (biased (R := 2000) (K := 256) (iblk2 V c 0 t) (iblk2 V c 1 t) (iblk2 V c 2 t))) (iblk2 V c 3 t)) (iblk2 V c 4 t)) j = whole2_5 V c (((cfg2.win 5).blk t).view.emb j)
  rw [hout, hx2, hx4]
  exact (rowsByCols_rows _ _ _ (row t.val ht) (fun r k => scaleRows_rows (row t.val ht) _ _ _ _ (fun r k => positive_rows (row t.val ht) _ _ (fun r k => biased_rows (row t.val ht) _ _ _ _ _ hx0 hx1 r k) r k) hx3 r k) j)

/-- An index of the output array is in point `t`'s block iff each coordinate is in the block's range. -/
theorem mem_blk2_5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v45).slice (win2_5.rect t)).set ↔ _
  rw [View.set_slice_whole, Rect.mem_set_unit]
  exact Iff.rfl

/-- Every block of rows is some point's. -/
theorem onto2_5 : ∀ q : Fin 25, ∃ t : Fin cfg2.N, win2_5.index t = ![q.val, 0] :=
  (by decide +kernel : ∀ q : Fin 25, ∃ t : Fin grid2.N, win2_5.index t = ![q.val, 0])

theorem cover2_5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := onto2_5 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- After the region, output window 5's array holds the whole-array result. -/
theorem final2_5 (c : Dev nD) : (dat2 V c).arrAt 5 cfg2.N = whole2_5 V c :=
  (dat2 V c).arrAt_eq_of_cover 5 (whole2_5 V c) (fun t _ => flushed2_5 V c t) (cover2_5)

end Cert.KernelIdeal.Layers

end
-- ==== Proof.Region3.lean ====
/-
  Region 3: layer three's bias (the first result), then layer four's transform, a block of 2000 node rows per grid point.

  Grid point `t` (of 25) fetches rows `2000·t … 2000·t + 1999` of each row-blocked operand (the aggregate and the
  degree-scale columns) and the whole of each shared operand (the bias row, the weights). What it computes for a row
  uses that row of the row-blocked operands only, so the rows it writes back are the same rows of the operation done on
  the whole arrays; the 25 blocks tile the 50000 rows, so after the region each output array holds that whole result.
-/
import proofs.«175314_j64630667870457_1_alg».proof.Proof.Gen.KernelIdeal.Frame
import proofs.«175314_j64630667870457_1_alg».proof.Proof.LibGcnRows
import proofs.«175314_j64630667870457_1_alg».proof.Proof.KBlocks

set_option maxRecDepth 16384

noncomputable section

namespace Cert.KernelIdeal.Layers

open Cert.KernelIdeal Cert.KernelIdeal.Gen
open Idealize.ShloMosaic Idealize.ShloMosaic.TcCoe Idealize.ShloMosaic.ValueIdx Idealize.ShloMosaic.PlainProduct Cert.GcnRows
open Idealize.SL.Sem
open Idealize.ShloMosaic.Pipeline (Dat)

variable (V : (c : Dev nD) → (b : Ref sig .tc) → Buf (Elt Ideal) ((c : Thread nD τ).loc b))

/-- What the body computes for output window 5 from its blocks. -/
theorem body3_5 (x0 : Vec Ideal S2000x128 .f32) (x1 : Vec Ideal S2000x1 .f32) (x2 : Vec Ideal S1x128 .f32) :
    k3_pay1 x0 x1 x2 = biased (R := 2000) (K := 128) x0 x1 x2 := by
  unfold k3_pay1
  dsimp only
  rw [addf_row]

/-- What the body computes for output window 6 from its blocks. -/
theorem body3_6 (x0 : Vec Ideal S2000x128 .f32) (x1 : Vec Ideal S2000x1 .f32) (x2 : Vec Ideal S1x128 .f32) (x3 : Vec Ideal S2000x1 .f32) (x4 : Vec Ideal S128x64 .bf16) :
    k3_pay2 x0 x1 x2 x3 x4 = rowsByCols (φ₂ := .bf16) (scaleRows (R := 2000) (K := 128) (biased (R := 2000) (K := 128) x0 x1 x2) x3) x4 := by
  unfold k3_pay2
  dsimp only
  rw [body3_5, mulf_column]
  exact matmul_block _ _ _ _

/-- The index maps over the grid: a row-blocked window is at block `(t, 0)`, a shared one at `(0, 0)`. -/
theorem maps3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0
    ∧ win3_6.index t (0 : Fin 2) = t.val
    ∧ win3_6.index t (1 : Fin 2) = 0 ∧ t.val < 25 :=
  (by decide +kernel : ∀ t : Fin grid3.N, _)

/-- The array the region leaves in output window 5. -/
abbrev whole3_5 (c : Dev nD) : S50000x128.Idx → Elt Ideal .f32 :=
  biased (R := 50000) (K := 128) (V c main_v55) (V c main_v14) (V c main_v21)

set_option maxHeartbeats 3200000 in
theorem flushed3_5 (c : Dev nD) (t : Fin cfg3.N) :
    (dat3 V c).flushed 5 t = ((cfg3.win 5).blk t).view.read (Elt Ideal) (whole3_5 V c) := by
  show (cfg3.win 5).cut (grid3.coords t) ((dat3 V c).after 5 t) = _
  rw [after3_5]
  unfold out3_5
  rw [View.canon_unit_zero origin2]
  simp only [View.ld_unit_zero (S := S2000x128) origin2, View.ld_unit_zero (S := S2000x1) origin2, View.ld_unit_zero (S := S1x128) origin2]
  rw [body3_5]
  obtain ⟨e00, e01, e10, e11, e20, e21, e30, e31, e40, e41, e50, e51, e60, e61, ht⟩ := maps3 t
  funext j
  have hout : ((cfg3.win 5).blk t).view.emb j = ix2 (n0 := 50000) (n1 := 128) (row t.val ht (j 0)) (j 1) := by
    funext a; apply Fin.ext
    match a with
    | ⟨0, _⟩ => show win3_5.index t (0 : Fin 2) * 2000 + 1 * (j 0).val = t.val * 2000 + (j 0).val; omega
    | ⟨1, _⟩ => show win3_5.index t (1 : Fin 2) * 128 + 1 * (j 1).val = (j 1).val; omega
  have hx0 : ∀ (r : Fin 2000) (k : Fin 128), iblk3 V c 0 t (ix2 (n0 := 2000) (n1 := 128) r k)
      = V c main_v55 (ix2 (n0 := 50000) (n1 := 128) (row t.val ht r) k) := by
    intro r k
    show V c main_v55 (((cfg3.win 0).blk t).view.emb (ix2 (n0 := 2000) (n1 := 128) r k)) = _
    refine congrArg _ ?_
    funext a; apply Fin.ext
    match a with
    | ⟨0, _⟩ => show win3_0.index t (0 : Fin 2) * 2000 + 1 * r.val = t.val * 2000 + r.val; omega
    | ⟨1, _⟩ => show win3_0.index t (1 : Fin 2) * 128 + 1 * k.val = k.val; omega
  have hx1 : ∀ r : Fin 2000, iblk3 V c 1 t (ix2 (n0 := 2000) (n1 := 1) r 0)
      = V c main_v14 (ix2 (n0 := 50000) (n1 := 1) (row t.val ht r) 0) := by
    intro r
    show V c main_v14 (((cfg3.win 1).blk t).view.emb (ix2 (n0 := 2000) (n1 := 1) r 0)) = _
    refine congrArg _ ?_
    funext a; apply Fin.ext
    match a with
    | ⟨0, _⟩ => show win3_1.index t (0 : Fin 2) * 2000 + 1 * r.val = t.val * 2000 + r.val; omega
    | ⟨1, _⟩ => show win3_1.index t (1 : Fin 2) * 1 + 1 * 0 = 0; omega
  have hx2 : iblk3 V c 2 t = V c main_v21 := by
    funext y
    show V c main_v21 (((cfg3.win 2).blk t).view.emb y) = V c main_v21 y
    refine congrArg _ ?_
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega
  show (biased (R := 2000) (K := 128) (iblk3 V c 0 t) (iblk3 V c 1 t) (iblk3 V c 2 t)) j = whole3_5 V c (((cfg3.win 5).blk t).view.emb j)
  rw [hout, hx2]
  exact (biased_block (row t.val ht) _ _ _ _ _ hx0 hx1 j)

/-- An index of the output array is in point `t`'s block iff each coordinate is in the block's range. -/
theorem mem_blk3_5 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v56_0).slice (win3_5.rect t)).set ↔ _
  rw [View.set_slice_whole, Rect.mem_set_unit]
  exact Iff.rfl

/-- Every block of rows is some point's. -/
theorem onto3_5 : ∀ q : Fin 25, ∃ t : Fin cfg3.N, win3_5.index t = ![q.val, 0] :=
  (by decide +kernel : ∀ q : Fin 25, ∃ t : Fin grid3.N, win3_5.index t = ![q.val, 0])

theorem cover3_5 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := onto3_5 ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk3_5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- After the region, output window 5's array holds the whole-array result. -/
theorem final3_5 (c : Dev nD) : (dat3 V c).arrAt 5 cfg3.N = whole3_5 V c :=
  (dat3 V c).arrAt_eq_of_cover 5 (whole3_5 V c) (fun t _ => flushed3_5 V c t) (cover3_5)

/-- The array the region leaves in output window 6. -/
abbrev whole3_6 (c : Dev nD) : S50000x64.Idx → Elt Ideal .f32 :=
  rowsByCols (φ₂ := .bf16) (scaleRows (R := 50000) (K := 128) (biased (R := 50000) (K := 128) (V c main_v55) (V c main_v14) (V c main_v21)) (V c main_v10)) (V c main_v18)

set_option maxHeartbeats 3200000 in
theorem flushed3_6 (c : Dev nD) (t : Fin cfg3.N) :
    (dat3 V c).flushed 6 t = ((cfg3.win 6).blk t).view.read (Elt Ideal) (whole3_6 V c) := by
  show (cfg3.win 6).cut (grid3.coords t) ((dat3 V c).after 6 t) = _
  rw [after3_6]
  unfold out3_6
  rw [View.canon_unit_zero origin2]
  simp only [View.ld_unit_zero (S := S2000x128) origin2, View.ld_unit_zero (S := S2000x1) origin2, View.ld_unit_zero (S := S1x128) origin2, View.ld_unit_zero (S := S128x64) origin2]
  rw [body3_6]
  obtain ⟨e00, e01, e10, e11, e20, e21, e30, e31, e40, e41, e50, e51, e60, e61, ht⟩ := maps3 t
  funext j
  have hout : ((cfg3.win 6).blk t).view.emb j = ix2 (n0 := 50000) (n1 := 64) (row t.val ht (j 0)) (j 1) := by
    funext a; apply Fin.ext
    match a with
    | ⟨0, _⟩ => show win3_6.index t (0 : Fin 2) * 2000 + 1 * (j 0).val = t.val * 2000 + (j 0).val; omega
    | ⟨1, _⟩ => show win3_6.index t (1 : Fin 2) * 64 + 1 * (j 1).val = (j 1).val; omega
  have hx0 : ∀ (r : Fin 2000) (k : Fin 128), iblk3 V c 0 t (ix2 (n0 := 2000) (n1 := 128) r k)
      = V c main_v55 (ix2 (n0 := 50000) (n1 := 128) (row t.val ht r) k) := by
    intro r k
    show V c main_v55 (((cfg3.win 0).blk t).view.emb (ix2 (n0 := 2000) (n1 := 128) r k)) = _
    refine congrArg _ ?_
    funext a; apply Fin.ext
    match a with
    | ⟨0, _⟩ => show win3_0.index t (0 : Fin 2) * 2000 + 1 * r.val = t.val * 2000 + r.val; omega
    | ⟨1, _⟩ => show win3_0.index t (1 : Fin 2) * 128 + 1 * k.val = k.val; omega
  have hx1 : ∀ r : Fin 2000, iblk3 V c 1 t (ix2 (n0 := 2000) (n1 := 1) r 0)
      = V c main_v14 (ix2 (n0 := 50000) (n1 := 1) (row t.val ht r) 0) := by
    intro r
    show V c main_v14 (((cfg3.win 1).blk t).view.emb (ix2 (n0 := 2000) (n1 := 1) r 0)) = _
    refine congrArg _ ?_
    funext a; apply Fin.ext
    match a with
    | ⟨0, _⟩ => show win3_1.index t (0 : Fin 2) * 2000 + 1 * r.val = t.val * 2000 + r.val; omega
    | ⟨1, _⟩ => show win3_1.index t (1 : Fin 2) * 1 + 1 * 0 = 0; omega
  have hx2 : iblk3 V c 2 t = V c main_v21 := by
    funext y
    show V c main_v21 (((cfg3.win 2).blk t).view.emb y) = V c main_v21 y
    refine congrArg _ ?_
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega
  have hx3 : ∀ r : Fin 2000, iblk3 V c 3 t (ix2 (n0 := 2000) (n1 := 1) r 0)
      = V c main_v10 (ix2 (n0 := 50000) (n1 := 1) (row t.val ht r) 0) := by
    intro r
    show V c main_v10 (((cfg3.win 3).blk t).view.emb (ix2 (n0 := 2000) (n1 := 1) r 0)) = _
    refine congrArg _ ?_
    funext a; apply Fin.ext
    match a with
    | ⟨0, _⟩ => show win3_3.index t (0 : Fin 2) * 2000 + 1 * r.val = t.val * 2000 + r.val; omega
    | ⟨1, _⟩ => show win3_3.index t (1 : Fin 2) * 1 + 1 * 0 = 0; omega
  have hx4 : iblk3 V c 4 t = V c main_v18 := by
    funext y
    show V c main_v18 (((cfg3.win 4).blk t).view.emb y) = V c main_v18 y
    refine congrArg _ ?_
    funext a; apply Fin.ext
    match a with
    | ⟨0, _⟩ => show win3_4.index t (0 : Fin 2) * 128 + 1 * (y 0).val = (y 0).val; omega
    | ⟨1, _⟩ => show win3_4.index t (1 : Fin 2) * 64 + 1 * (y 1).val = (y 1).val; omega
  show (rowsByCols (φ₂ := .bf16) (scaleRows (R := 2000) (K := 128) (biased (R := 2000) (K := 128) (iblk3 V c 0 t) (iblk3 V c 1 t) (iblk3 V c 2 t)) (iblk3 V c 3 t)) (iblk3 V c 4 t)) j = whole3_6 V c (((cfg3.win 6).blk t).view.emb j)
  rw [hout, hx2, hx4]
  have e := row t.val ht
  exact (rowsByCols_rows _ _ _ (row t.val ht) (fun r k => scaleRows_rows (row t.val ht) _ _ _ _ (fun r k => biased_rows (row t.val ht) _ _ _ _ _ hx0 hx1 r k) hx3 r k) j)

/-- An index of the output array is in point `t`'s block iff each coordinate is in the block's range. -/
theorem mem_blk3_6 (t : Fin cfg3.N) (i : S50000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v56_1).slice (win3_6.rect t)).set ↔ _
  rw [View.set_slice_whole, Rect.mem_set_unit]
  exact Iff.rfl

/-- Every block of rows is some point's. -/
theorem onto3_6 : ∀ q : Fin 25, ∃ t : Fin cfg3.N, win3_6.index t = ![q.val, 0] :=
  (by decide +kernel : ∀ q : Fin 25, ∃ t : Fin grid3.N, win3_6.index t = ![q.val, 0])

theorem cover3_6 (i : S50000x64.Idx) : ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ := onto3_6 ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [mem_blk3_6]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 64 ≤ (i 1).val ∧ (i 1).val < win3_6.index t (1 : Fin 2) * 64 + 64; omega

/-- After the region, output window 6's array holds the whole-array result. -/
theorem final3_6 (c : Dev nD) : (dat3 V c).arrAt 6 cfg3.N = whole3_6 V c :=
  (dat3 V c).arrAt_eq_of_cover 6 (whole3_6 V c) (fun t _ => flushed3_6 V c t) (cover3_6)

end Cert.KernelIdeal.Layers

end
-- ==== Proof.Region4.lean ====
/-
  Region 4: layer four's bias (the second result), a block of 2000 node rows per grid point.

  Grid point `t` (of 25) fetches rows `2000·t … 2000·t + 1999` of each row-blocked operand (the aggregate and the
  degree-scale columns) and the whole of each shared operand (the bias row, the weights). What it computes for a row
  uses that row of the row-blocked operands only, so the rows it writes back are the same rows of the operation done on
  the whole arrays; the 25 blocks tile the 50000 rows, so after the region each output array holds that whole result.
-/
import proofs.«175314_j64630667870457_1_alg».proof.Proof.Gen.KernelIdeal.Frame
import proofs.«175314_j64630667870457_1_alg».proof.Proof.LibGcnRows
import proofs.«175314_j64630667870457_1_alg».proof.Proof.KBlocks

set_option maxRecDepth 16384

noncomputable section

namespace Cert.KernelIdeal.Layers

open Cert.KernelIdeal Cert.KernelIdeal.Gen
open Idealize.ShloMosaic Idealize.ShloMosaic.TcCoe Idealize.ShloMosaic.ValueIdx Idealize.ShloMosaic.PlainProduct Cert.GcnRows
open Idealize.SL.Sem
open Idealize.ShloMosaic.Pipeline (Dat)

variable (V : (c : Dev nD) → (b : Ref sig .tc) → Buf (Elt Ideal) ((c : Thread nD τ).loc b))

/-- What the body computes for output window 3 from its blocks. -/
theorem body4_3 (x0 : Vec Ideal S2000x64 .f32) (x1 : Vec Ideal S2000x1 .f32) (x2 : Vec Ideal S1x64 .f32) :
    k4_pay1 x0 x1 x2 = biased (R := 2000) (K := 64) x0 x1 x2 := by
  unfold k4_pay1
  dsimp only
  rw [addf_row]

/-- The index maps over the grid: a row-blocked window is at block `(t, 0)`, a shared one at `(0, 0)`. -/
theorem maps4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 ∧ t.val < 25 :=
  (by decide +kernel : ∀ t : Fin grid4.N, _)

/-- The array the region leaves in output window 3. -/
abbrev whole4_3 (c : Dev nD) : S50000x64.Idx → Elt Ideal .f32 :=
  biased (R := 50000) (K := 64) (V c main_v66) (V c main_v14) (V c main_v22)

set_option maxHeartbeats 3200000 in
theorem flushed4_3 (c : Dev nD) (t : Fin cfg4.N) :
    (dat4 V c).flushed 3 t = ((cfg4.win 3).blk t).view.read (Elt Ideal) (whole4_3 V c) := by
  show (cfg4.win 3).cut (grid4.coords t) ((dat4 V c).after 3 t) = _
  rw [after4_3]
  unfold out4_3
  rw [View.canon_unit_zero origin2]
  simp only [View.ld_unit_zero (S := S2000x64) origin2, View.ld_unit_zero (S := S2000x1) origin2, View.ld_unit_zero (S := S1x64) origin2]
  rw [body4_3]
  obtain ⟨e00, e01, e10, e11, e20, e21, e30, e31, ht⟩ := maps4 t
  funext j
  have hout : ((cfg4.win 3).blk t).view.emb j = ix2 (n0 := 50000) (n1 := 64) (row t.val ht (j 0)) (j 1) := by
    funext a; apply Fin.ext
    match a with
    | ⟨0, _⟩ => show win4_3.index t (0 : Fin 2) * 2000 + 1 * (j 0).val = t.val * 2000 + (j 0).val; omega
    | ⟨1, _⟩ => show win4_3.index t (1 : Fin 2) * 64 + 1 * (j 1).val = (j 1).val; omega
  have hx0 : ∀ (r : Fin 2000) (k : Fin 64), iblk4 V c 0 t (ix2 (n0 := 2000) (n1 := 64) r k)
      = V c main_v66 (ix2 (n0 := 50000) (n1 := 64) (row t.val ht r) k) := by
    intro r k
    show V c main_v66 (((cfg4.win 0).blk t).view.emb (ix2 (n0 := 2000) (n1 := 64) r k)) = _
    refine congrArg _ ?_
    funext a; apply Fin.ext
    match a with
    | ⟨0, _⟩ => show win4_0.index t (0 : Fin 2) * 2000 + 1 * r.val = t.val * 2000 + r.val; omega
    | ⟨1, _⟩ => show win4_0.index t (1 : Fin 2) * 64 + 1 * k.val = k.val; omega
  have hx1 : ∀ r : Fin 2000, iblk4 V c 1 t (ix2 (n0 := 2000) (n1 := 1) r 0)
      = V c main_v14 (ix2 (n0 := 50000) (n1 := 1) (row t.val ht r) 0) := by
    intro r
    show V c main_v14 (((cfg4.win 1).blk t).view.emb (ix2 (n0 := 2000) (n1 := 1) r 0)) = _
    refine congrArg _ ?_
    funext a; apply Fin.ext
    match a with
    | ⟨0, _⟩ => show win4_1.index t (0 : Fin 2) * 2000 + 1 * r.val = t.val * 2000 + r.val; omega
    | ⟨1, _⟩ => show win4_1.index t (1 : Fin 2) * 1 + 1 * 0 = 0; omega
  have hx2 : iblk4 V c 2 t = V c main_v22 := by
    funext y
    show V c main_v22 (((cfg4.win 2).blk t).view.emb y) = V c main_v22 y
    refine congrArg _ ?_
    funext a; apply Fin.ext
    match a with
    | ⟨0, _⟩ => show win4_2.index t (0 : Fin 2) * 1 + 1 * (y 0).val = (y 0).val; omega
    | ⟨1, _⟩ => show win4_2.index t (1 : Fin 2) * 64 + 1 * (y 1).val = (y 1).val; omega
  show (biased (R := 2000) (K := 64) (iblk4 V c 0 t) (iblk4 V c 1 t) (iblk4 V c 2 t)) j = whole4_3 V c (((cfg4.win 3).blk t).view.emb j)
  rw [hout, hx2]
  exact (biased_block (row t.val ht) _ _ _ _ _ hx0 hx1 j)

/-- An index of the output array is in point `t`'s block iff each coordinate is in the block's range. -/
theorem mem_blk4_3 (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v67).slice (win4_3.rect t)).set ↔ _
  rw [View.set_slice_whole, Rect.mem_set_unit]
  exact Iff.rfl

/-- Every block of rows is some point's. -/
theorem onto4_3 : ∀ q : Fin 25, ∃ t : Fin cfg4.N, win4_3.index t = ![q.val, 0] :=
  (by decide +kernel : ∀ q : Fin 25, ∃ t : Fin grid4.N, win4_3.index t = ![q.val, 0])

theorem cover4_3 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := onto4_3 ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk4_3]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 64 ≤ (i 1).val ∧ (i 1).val < win4_3.index t (1 : Fin 2) * 64 + 64; omega

/-- After the region, output window 3's array holds the whole-array result. -/
theorem final4_3 (c : Dev nD) : (dat4 V c).arrAt 3 cfg4.N = whole4_3 V c :=
  (dat4 V c).arrAt_eq_of_cover 3 (whole4_3 V c) (fun t _ => flushed4_3 V c t) (cover4_3)

end Cert.KernelIdeal.Layers

end
-- ==== Proof.KCarried.lean ====
/-
  Buffers that later segments read, carried unchanged through the segments that do not write them.

  The two degree-scale columns, the four weight matrices in their narrowed format, the four bias rows and the two
  edge-index arguments are written (or given) before the first region and only read afterwards: a region leaves its
  input arrays as it found them and touches nothing outside its own arrays, and a stretch of host operations changes
  only the buffers it writes. So each of them holds, wherever a later segment reads it, what it held before the first
  region; likewise the first result is not touched after the region that writes it.
-/
import proofs.«175314_j64630667870457_1_alg».proof.Proof.Gen.KernelIdeal.Frame

set_option maxRecDepth 16384

noncomputable section

namespace Cert.KernelIdeal.Carried

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

theorem v10_at7 (c : Dev nD) : W7 m ρ c (Proc.devRef .tc main_v10) = W5 m ρ c (Proc.devRef .tc main_v10) :=
  ((show StableHlo.after hostOps1 (W6 m ρ c) (Proc.devRef .tc main_v10) = W6 m ρ c (Proc.devRef .tc main_v10) by dsimp only [hostOps1]; after_results).trans ((W6_arr m ρ c 1).trans (((dat0 (V5 m ρ) c).arrAt_in 1 rfl _).trans (A_eq0 (V5 m ρ) c 1))))

theorem v10_at9 (c : Dev nD) : W9 m ρ c (Proc.devRef .tc main_v10) = W5 m ρ c (Proc.devRef .tc main_v10) :=
  ((((show StableHlo.after hostOps2 (W8 m ρ c) (Proc.devRef .tc main_v10) = W8 m ρ c (Proc.devRef .tc main_v10) by dsimp only [hostOps2]; after_results).trans ((W8_arr m ρ c 3).trans (((dat1 (V7 m ρ) c).arrAt_in 3 rfl _).trans (A_eq1 (V7 m ρ) c 3)))).trans (show StableHlo.after hostOps1 (W6 m ρ c) (Proc.devRef .tc main_v10) = W6 m ρ c (Proc.devRef .tc main_v10) by dsimp only [hostOps1]; after_results)).trans ((W6_arr m ρ c 1).trans (((dat0 (V5 m ρ) c).arrAt_in 1 rfl _).trans (A_eq0 (V5 m ρ) c 1))))

theorem v10_at11 (c : Dev nD) : W11 m ρ c (Proc.devRef .tc main_v10) = W5 m ρ c (Proc.devRef .tc main_v10) :=
  ((((((show StableHlo.after hostOps3 (W10 m ρ c) (Proc.devRef .tc main_v10) = W10 m ρ c (Proc.devRef .tc main_v10) by dsimp only [hostOps3]; after_results).trans ((W10_arr m ρ c 3).trans (((dat2 (V9 m ρ) c).arrAt_in 3 rfl _).trans (A_eq2 (V9 m ρ) c 3)))).trans (show StableHlo.after hostOps2 (W8 m ρ c) (Proc.devRef .tc main_v10) = W8 m ρ c (Proc.devRef .tc main_v10) by dsimp only [hostOps2]; after_results)).trans ((W8_arr m ρ c 3).trans (((dat1 (V7 m ρ) c).arrAt_in 3 rfl _).trans (A_eq1 (V7 m ρ) c 3)))).trans (show StableHlo.after hostOps1 (W6 m ρ c) (Proc.devRef .tc main_v10) = W6 m ρ c (Proc.devRef .tc main_v10) by dsimp only [hostOps1]; after_results)).trans ((W6_arr m ρ c 1).trans (((dat0 (V5 m ρ) c).arrAt_in 1 rfl _).trans (A_eq0 (V5 m ρ) c 1))))

theorem v14_at7 (c : Dev nD) : W7 m ρ c (Proc.devRef .tc main_v14) = W5 m ρ c (Proc.devRef .tc main_v14) :=
  ((show StableHlo.after hostOps1 (W6 m ρ c) (Proc.devRef .tc main_v14) = W6 m ρ c (Proc.devRef .tc main_v14) by dsimp only [hostOps1]; after_results).trans (W6_of_ne m ρ c main_v14 (by decide)))

theorem v14_at9 (c : Dev nD) : W9 m ρ c (Proc.devRef .tc main_v14) = W5 m ρ c (Proc.devRef .tc main_v14) :=
  ((((show StableHlo.after hostOps2 (W8 m ρ c) (Proc.devRef .tc main_v14) = W8 m ρ c (Proc.devRef .tc main_v14) by dsimp only [hostOps2]; after_results).trans ((W8_arr m ρ c 1).trans (((dat1 (V7 m ρ) c).arrAt_in 1 rfl _).trans (A_eq1 (V7 m ρ) c 1)))).trans (show StableHlo.after hostOps1 (W6 m ρ c) (Proc.devRef .tc main_v14) = W6 m ρ c (Proc.devRef .tc main_v14) by dsimp only [hostOps1]; after_results)).trans (W6_of_ne m ρ c main_v14 (by decide)))

theorem v14_at11 (c : Dev nD) : W11 m ρ c (Proc.devRef .tc main_v14) = W5 m ρ c (Proc.devRef .tc main_v14) :=
  ((((((show StableHlo.after hostOps3 (W10 m ρ c) (Proc.devRef .tc main_v14) = W10 m ρ c (Proc.devRef .tc main_v14) by dsimp only [hostOps3]; after_results).trans ((W10_arr m ρ c 1).trans (((dat2 (V9 m ρ) c).arrAt_in 1 rfl _).trans (A_eq2 (V9 m ρ) c 1)))).trans (show StableHlo.after hostOps2 (W8 m ρ c) (Proc.devRef .tc main_v14) = W8 m ρ c (Proc.devRef .tc main_v14) by dsimp only [hostOps2]; after_results)).trans ((W8_arr m ρ c 1).trans (((dat1 (V7 m ρ) c).arrAt_in 1 rfl _).trans (A_eq1 (V7 m ρ) c 1)))).trans (show StableHlo.after hostOps1 (W6 m ρ c) (Proc.devRef .tc main_v14) = W6 m ρ c (Proc.devRef .tc main_v14) by dsimp only [hostOps1]; after_results)).trans (W6_of_ne m ρ c main_v14 (by decide)))

theorem v14_at13 (c : Dev nD) : W13 m ρ c (Proc.devRef .tc main_v14) = W5 m ρ c (Proc.devRef .tc main_v14) :=
  ((((((((show StableHlo.after hostOps4 (W12 m ρ c) (Proc.devRef .tc main_v14) = W12 m ρ c (Proc.devRef .tc main_v14) by dsimp only [hostOps4]; after_results).trans ((W12_arr m ρ c 1).trans (((dat3 (V11 m ρ) c).arrAt_in 1 rfl _).trans (A_eq3 (V11 m ρ) c 1)))).trans (show StableHlo.after hostOps3 (W10 m ρ c) (Proc.devRef .tc main_v14) = W10 m ρ c (Proc.devRef .tc main_v14) by dsimp only [hostOps3]; after_results)).trans ((W10_arr m ρ c 1).trans (((dat2 (V9 m ρ) c).arrAt_in 1 rfl _).trans (A_eq2 (V9 m ρ) c 1)))).trans (show StableHlo.after hostOps2 (W8 m ρ c) (Proc.devRef .tc main_v14) = W8 m ρ c (Proc.devRef .tc main_v14) by dsimp only [hostOps2]; after_results)).trans ((W8_arr m ρ c 1).trans (((dat1 (V7 m ρ) c).arrAt_in 1 rfl _).trans (A_eq1 (V7 m ρ) c 1)))).trans (show StableHlo.after hostOps1 (W6 m ρ c) (Proc.devRef .tc main_v14) = W6 m ρ c (Proc.devRef .tc main_v14) by dsimp only [hostOps1]; after_results)).trans (W6_of_ne m ρ c main_v14 (by decide)))

theorem v16_at7 (c : Dev nD) : W7 m ρ c (Proc.devRef .tc main_v16) = W5 m ρ c (Proc.devRef .tc main_v16) :=
  ((show StableHlo.after hostOps1 (W6 m ρ c) (Proc.devRef .tc main_v16) = W6 m ρ c (Proc.devRef .tc main_v16) by dsimp only [hostOps1]; after_results).trans (W6_of_ne m ρ c main_v16 (by decide)))

theorem v17_at9 (c : Dev nD) : W9 m ρ c (Proc.devRef .tc main_v17) = W5 m ρ c (Proc.devRef .tc main_v17) :=
  ((((show StableHlo.after hostOps2 (W8 m ρ c) (Proc.devRef .tc main_v17) = W8 m ρ c (Proc.devRef .tc main_v17) by dsimp only [hostOps2]; after_results).trans (W8_of_ne m ρ c main_v17 (by decide))).trans (show StableHlo.after hostOps1 (W6 m ρ c) (Proc.devRef .tc main_v17) = W6 m ρ c (Proc.devRef .tc main_v17) by dsimp only [hostOps1]; after_results)).trans (W6_of_ne m ρ c main_v17 (by decide)))

theorem v18_at11 (c : Dev nD) : W11 m ρ c (Proc.devRef .tc main_v18) = W5 m ρ c (Proc.devRef .tc main_v18) :=
  ((((((show StableHlo.after hostOps3 (W10 m ρ c) (Proc.devRef .tc main_v18) = W10 m ρ c (Proc.devRef .tc main_v18) by dsimp only [hostOps3]; after_results).trans (W10_of_ne m ρ c main_v18 (by decide))).trans (show StableHlo.after hostOps2 (W8 m ρ c) (Proc.devRef .tc main_v18) = W8 m ρ c (Proc.devRef .tc main_v18) by dsimp only [hostOps2]; after_results)).trans (W8_of_ne m ρ c main_v18 (by decide))).trans (show StableHlo.after hostOps1 (W6 m ρ c) (Proc.devRef .tc main_v18) = W6 m ρ c (Proc.devRef .tc main_v18) by dsimp only [hostOps1]; after_results)).trans (W6_of_ne m ρ c main_v18 (by decide)))

theorem v19_at7 (c : Dev nD) : W7 m ρ c (Proc.devRef .tc main_v19) = W5 m ρ c (Proc.devRef .tc main_v19) :=
  ((show StableHlo.after hostOps1 (W6 m ρ c) (Proc.devRef .tc main_v19) = W6 m ρ c (Proc.devRef .tc main_v19) by dsimp only [hostOps1]; after_results).trans (W6_of_ne m ρ c main_v19 (by decide)))

theorem v20_at9 (c : Dev nD) : W9 m ρ c (Proc.devRef .tc main_v20) = W5 m ρ c (Proc.devRef .tc main_v20) :=
  ((((show StableHlo.after hostOps2 (W8 m ρ c) (Proc.devRef .tc main_v20) = W8 m ρ c (Proc.devRef .tc main_v20) by dsimp only [hostOps2]; after_results).trans (W8_of_ne m ρ c main_v20 (by decide))).trans (show StableHlo.after hostOps1 (W6 m ρ c) (Proc.devRef .tc main_v20) = W6 m ρ c (Proc.devRef .tc main_v20) by dsimp only [hostOps1]; after_results)).trans (W6_of_ne m ρ c main_v20 (by decide)))

theorem v21_at11 (c : Dev nD) : W11 m ρ c (Proc.devRef .tc main_v21) = W5 m ρ c (Proc.devRef .tc main_v21) :=
  ((((((show StableHlo.after hostOps3 (W10 m ρ c) (Proc.devRef .tc main_v21) = W10 m ρ c (Proc.devRef .tc main_v21) by dsimp only [hostOps3]; after_results).trans (W10_of_ne m ρ c main_v21 (by decide))).trans (show StableHlo.after hostOps2 (W8 m ρ c) (Proc.devRef .tc main_v21) = W8 m ρ c (Proc.devRef .tc main_v21) by dsimp only [hostOps2]; after_results)).trans (W8_of_ne m ρ c main_v21 (by decide))).trans (show StableHlo.after hostOps1 (W6 m ρ c) (Proc.devRef .tc main_v21) = W6 m ρ c (Proc.devRef .tc main_v21) by dsimp only [hostOps1]; after_results)).trans (W6_of_ne m ρ c main_v21 (by decide)))

theorem v22_at13 (c : Dev nD) : W13 m ρ c (Proc.devRef .tc main_v22) = W5 m ρ c (Proc.devRef .tc main_v22) :=
  ((((((((show StableHlo.after hostOps4 (W12 m ρ c) (Proc.devRef .tc main_v22) = W12 m ρ c (Proc.devRef .tc main_v22) by dsimp only [hostOps4]; after_results).trans (W12_of_ne m ρ c main_v22 (by decide))).trans (show StableHlo.after hostOps3 (W10 m ρ c) (Proc.devRef .tc main_v22) = W10 m ρ c (Proc.devRef .tc main_v22) by dsimp only [hostOps3]; after_results)).trans (W10_of_ne m ρ c main_v22 (by decide))).trans (show StableHlo.after hostOps2 (W8 m ρ c) (Proc.devRef .tc main_v22) = W8 m ρ c (Proc.devRef .tc main_v22) by dsimp only [hostOps2]; after_results)).trans (W8_of_ne m ρ c main_v22 (by decide))).trans (show StableHlo.after hostOps1 (W6 m ρ c) (Proc.devRef .tc main_v22) = W6 m ρ c (Proc.devRef .tc main_v22) by dsimp only [hostOps1]; after_results)).trans (W6_of_ne m ρ c main_v22 (by decide)))

set_option maxHeartbeats 4000000 in
theorem arg0_at5 (c : Dev nD) : W5 m ρ c (Proc.devRef .tc main_arg0) = m ((c : Thread nD τ).loc main_arg0) :=
  (((((show StableHlo.after hostOps0_4 (W4 m ρ c) (Proc.devRef .tc main_arg0) = W4 m ρ c (Proc.devRef .tc main_arg0) by dsimp only [hostOps0_4]; after_results).trans (show StableHlo.after hostOps0_3 (W3 m ρ c) (Proc.devRef .tc main_arg0) = W3 m ρ c (Proc.devRef .tc main_arg0) by dsimp only [hostOps0_3]; after_results)).trans (show StableHlo.after hostOps0_2 (W2 m ρ c) (Proc.devRef .tc main_arg0) = W2 m ρ c (Proc.devRef .tc main_arg0) by dsimp only [hostOps0_2]; after_results)).trans (show StableHlo.after hostOps0_1 (W1 m ρ c) (Proc.devRef .tc main_arg0) = W1 m ρ c (Proc.devRef .tc main_arg0) by dsimp only [hostOps0_1]; after_results)).trans (show StableHlo.after hostOps0 (W0 m ρ c) (Proc.devRef .tc main_arg0) = W0 m ρ c (Proc.devRef .tc main_arg0) by dsimp only [hostOps0]; after_results))

set_option maxHeartbeats 4000000 in
theorem arg1_at5 (c : Dev nD) : W5 m ρ c (Proc.devRef .tc main_arg1) = m ((c : Thread nD τ).loc main_arg1) :=
  (((((show StableHlo.after hostOps0_4 (W4 m ρ c) (Proc.devRef .tc main_arg1) = W4 m ρ c (Proc.devRef .tc main_arg1) by dsimp only [hostOps0_4]; after_results).trans (show StableHlo.after hostOps0_3 (W3 m ρ c) (Proc.devRef .tc main_arg1) = W3 m ρ c (Proc.devRef .tc main_arg1) by dsimp only [hostOps0_3]; after_results)).trans (show StableHlo.after hostOps0_2 (W2 m ρ c) (Proc.devRef .tc main_arg1) = W2 m ρ c (Proc.devRef .tc main_arg1) by dsimp only [hostOps0_2]; after_results)).trans (show StableHlo.after hostOps0_1 (W1 m ρ c) (Proc.devRef .tc main_arg1) = W1 m ρ c (Proc.devRef .tc main_arg1) by dsimp only [hostOps0_1]; after_results)).trans (show StableHlo.after hostOps0 (W0 m ρ c) (Proc.devRef .tc main_arg1) = W0 m ρ c (Proc.devRef .tc main_arg1) by dsimp only [hostOps0]; after_results))

theorem arg1_at6 (c : Dev nD) : W6 m ρ c (Proc.devRef .tc main_arg1) = m ((c : Thread nD τ).loc main_arg1) :=
  ((W6_of_ne m ρ c main_arg1 (by decide))).trans (arg1_at5 m ρ c)

theorem arg1_at8 (c : Dev nD) : W8 m ρ c (Proc.devRef .tc main_arg1) = m ((c : Thread nD τ).loc main_arg1) :=
  (((W8_of_ne m ρ c main_arg1 (by decide)).trans (show StableHlo.after hostOps1 (W6 m ρ c) (Proc.devRef .tc main_arg1) = W6 m ρ c (Proc.devRef .tc main_arg1) by dsimp only [hostOps1]; after_results))).trans (arg1_at6 m ρ c)

theorem arg1_at10 (c : Dev nD) : W10 m ρ c (Proc.devRef .tc main_arg1) = m ((c : Thread nD τ).loc main_arg1) :=
  (((W10_of_ne m ρ c main_arg1 (by decide)).trans (show StableHlo.after hostOps2 (W8 m ρ c) (Proc.devRef .tc main_arg1) = W8 m ρ c (Proc.devRef .tc main_arg1) by dsimp only [hostOps2]; after_results))).trans (arg1_at8 m ρ c)

theorem arg1_at12 (c : Dev nD) : W12 m ρ c (Proc.devRef .tc main_arg1) = m ((c : Thread nD τ).loc main_arg1) :=
  (((W12_of_ne m ρ c main_arg1 (by decide)).trans (show StableHlo.after hostOps3 (W10 m ρ c) (Proc.devRef .tc main_arg1) = W10 m ρ c (Proc.devRef .tc main_arg1) by dsimp only [hostOps3]; after_results))).trans (arg1_at10 m ρ c)

set_option maxHeartbeats 4000000 in
theorem arg2_at5 (c : Dev nD) : W5 m ρ c (Proc.devRef .tc main_arg2) = m ((c : Thread nD τ).loc main_arg2) :=
  (((((show StableHlo.after hostOps0_4 (W4 m ρ c) (Proc.devRef .tc main_arg2) = W4 m ρ c (Proc.devRef .tc main_arg2) by dsimp only [hostOps0_4]; after_results).trans (show StableHlo.after hostOps0_3 (W3 m ρ c) (Proc.devRef .tc main_arg2) = W3 m ρ c (Proc.devRef .tc main_arg2) by dsimp only [hostOps0_3]; after_results)).trans (show StableHlo.after hostOps0_2 (W2 m ρ c) (Proc.devRef .tc main_arg2) = W2 m ρ c (Proc.devRef .tc main_arg2) by dsimp only [hostOps0_2]; after_results)).trans (show StableHlo.after hostOps0_1 (W1 m ρ c) (Proc.devRef .tc main_arg2) = W1 m ρ c (Proc.devRef .tc main_arg2) by dsimp only [hostOps0_1]; after_results)).trans (show StableHlo.after hostOps0 (W0 m ρ c) (Proc.devRef .tc main_arg2) = W0 m ρ c (Proc.devRef .tc main_arg2) by dsimp only [hostOps0]; after_results))

theorem arg2_at6 (c : Dev nD) : W6 m ρ c (Proc.devRef .tc main_arg2) = m ((c : Thread nD τ).loc main_arg2) :=
  ((W6_of_ne m ρ c main_arg2 (by decide))).trans (arg2_at5 m ρ c)

theorem arg2_at8 (c : Dev nD) : W8 m ρ c (Proc.devRef .tc main_arg2) = m ((c : Thread nD τ).loc main_arg2) :=
  (((W8_of_ne m ρ c main_arg2 (by decide)).trans (show StableHlo.after hostOps1 (W6 m ρ c) (Proc.devRef .tc main_arg2) = W6 m ρ c (Proc.devRef .tc main_arg2) by dsimp only [hostOps1]; after_results))).trans (arg2_at6 m ρ c)

theorem arg2_at10 (c : Dev nD) : W10 m ρ c (Proc.devRef .tc main_arg2) = m ((c : Thread nD τ).loc main_arg2) :=
  (((W10_of_ne m ρ c main_arg2 (by decide)).trans (show StableHlo.after hostOps2 (W8 m ρ c) (Proc.devRef .tc main_arg2) = W8 m ρ c (Proc.devRef .tc main_arg2) by dsimp only [hostOps2]; after_results))).trans (arg2_at8 m ρ c)

theorem arg2_at12 (c : Dev nD) : W12 m ρ c (Proc.devRef .tc main_arg2) = m ((c : Thread nD τ).loc main_arg2) :=
  (((W12_of_ne m ρ c main_arg2 (by decide)).trans (show StableHlo.after hostOps3 (W10 m ρ c) (Proc.devRef .tc main_arg2) = W10 m ρ c (Proc.devRef .tc main_arg2) by dsimp only [hostOps3]; after_results))).trans (arg2_at10 m ρ c)

theorem v56_0_at14 (c : Dev nD) : W14 m ρ c (Proc.devRef .tc main_v56_0) = W12 m ρ c (Proc.devRef .tc main_v56_0) :=
  ((W14_of_ne m ρ c main_v56_0 (by decide)).trans (show StableHlo.after hostOps4 (W12 m ρ c) (Proc.devRef .tc main_v56_0) = W12 m ρ c (Proc.devRef .tc main_v56_0) by dsimp only [hostOps4]; after_results))

end Cert.KernelIdeal.Carried

end
-- ==== Proof.KStage5.lean ====
/-
  What the kernel program's host operations before the first region leave in the buffers the regions read.

  They count, for every node, the edges leaving it and the edges entering it (a scatter of ones), bound the counts
  below by one and raise them to the power minus one half — the same operations, on the same literals, as the
  reference's first lines, so the two vectors of degree factors are the reference's —, reshape each vector into a
  column, change the format of the four weight matrices (no change on the extended reals) and reshape each bias
  vector into a row. That the operations are the reference's holds whatever the arithmetic: it is stated for any
  float instance, where the operations are opaque, and only then read on the extended reals.
-/
import proofs.«175314_j64630667870457_1_alg».proof.Proof.Gen.KernelIdeal.Frame
import proofs.«175314_j64630667870457_1_alg».proof.Proof.Gen.ReferenceIdeal.Read
import proofs.«175314_j64630667870457_1_alg».proof.Proof.LibGcnRows

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx Cert.GcnRows
open Idealize.SL.Sem

section AnyInstance

variable {F : FTy → Type} [FloatOps F]
variable (m : (ℓ : Loc nD τ sig) → Buf (Elt F) ℓ) (ρ : Dev nD → PrngReg)

/-- The five stretches of host operations before the first region, from the launch memory. -/
theorem W5_unfold (c : Dev nD) (b : DevRef τ sig) : W5 m ρ c b
    = StableHlo.after hostOps0_4 (StableHlo.after hostOps0_3 (StableHlo.after hostOps0_2 (StableHlo.after hostOps0_1
        (StableHlo.after hostOps0 (W0 m ρ c))))) b := rfl

set_option maxHeartbeats 8000000 in
/-- The column of the source-degree factors: the reference's factors of the first index array, reshaped. -/
theorem ns_reshaped (c : Dev nD) : W5 m ρ c (Proc.devRef .tc main_v10)
    = shapeCast S50000x1 (Cert.ReferenceIdeal.Read.val_main_v9 (F := F) (m ((c.tc : Thread nD τ).loc main_arg1))) shapeCasts_S50000_S50000x1 := by
  rw [W5_unfold]
  dsimp only [hostOps0_4, hostOps0_3, hostOps0_2, hostOps0_1, hostOps0]
  after_results
  rfl

set_option maxHeartbeats 8000000 in
/-- The column of the target-degree factors: the reference's factors of the second index array, reshaped. -/
theorem nd_reshaped (c : Dev nD) : W5 m ρ c (Proc.devRef .tc main_v14)
    = shapeCast S50000x1 (Cert.ReferenceIdeal.Read.val_main_v12 (F := F) (m ((c.tc : Thread nD τ).loc main_arg2))) shapeCasts_S50000_S50000x1 := by
  rw [W5_unfold]
  dsimp only [hostOps0_4, hostOps0_3, hostOps0_2, hostOps0_1, hostOps0]
  after_results
  rfl

set_option maxHeartbeats 8000000 in
theorem weights3_narrowed (c : Dev nD) : W5 m ρ c (Proc.devRef .tc main_v15)
    = truncf (F := F) (s := S512x256) .bf16 (m ((c.tc : Thread nD τ).loc main_arg3)) bitsLt_bf16_f32 := by
  rw [W5_unfold]
  dsimp only [hostOps0_4, hostOps0_3, hostOps0_2, hostOps0_1, hostOps0]
  after_results

set_option maxHeartbeats 8000000 in
theorem weights5_narrowed (c : Dev nD) : W5 m ρ c (Proc.devRef .tc main_v16)
    = truncf (F := F) (s := S256x256) .bf16 (m ((c.tc : Thread nD τ).loc main_arg5)) bitsLt_bf16_f32 := by
  rw [W5_unfold]
  dsimp only [hostOps0_4, hostOps0_3, hostOps0_2, hostOps0_1, hostOps0]
  after_results

set_option maxHeartbeats 8000000 in
theorem weights7_narrowed (c : Dev nD) : W5 m ρ c (Proc.devRef .tc main_v17)
    = truncf (F := F) (s := S256x128) .bf16 (m ((c.tc : Thread nD τ).loc main_arg7)) bitsLt_bf16_f32 := by
  rw [W5_unfold]
  dsimp only [hostOps0_4, hostOps0_3, hostOps0_2, hostOps0_1, hostOps0]
  after_results

set_option maxHeartbeats 8000000 in
theorem weights9_narrowed (c : Dev nD) : W5 m ρ c (Proc.devRef .tc main_v18)
    = truncf (F := F) (s := S128x64) .bf16 (m ((c.tc : Thread nD τ).loc main_arg9)) bitsLt_bf16_f32 := by
  rw [W5_unfold]
  dsimp only [hostOps0_4, hostOps0_3, hostOps0_2, hostOps0_1, hostOps0]
  after_results

set_option maxHeartbeats 8000000 in
theorem bias4_reshaped (c : Dev nD) : W5 m ρ c (Proc.devRef .tc main_v19)
    = shapeCast S1x256 (m ((c.tc : Thread nD τ).loc main_arg4)) shapeCasts_S256_S1x256 := by
  rw [W5_unfold]
  dsimp only [hostOps0_4, hostOps0_3, hostOps0_2, hostOps0_1, hostOps0]
  after_results
  rfl

set_option maxHeartbeats 8000000 in
theorem bias6_reshaped (c : Dev nD) : W5 m ρ c (Proc.devRef .tc main_v20)
    = shapeCast S1x256 (m ((c.tc : Thread nD τ).loc main_arg6)) shapeCasts_S256_S1x256 := by
  rw [W5_unfold]
  dsimp only [hostOps0_4, hostOps0_3, hostOps0_2, hostOps0_1, hostOps0]
  after_results
  rfl

set_option maxHeartbeats 8000000 in
theorem bias8_reshaped (c : Dev nD) : W5 m ρ c (Proc.devRef .tc main_v21)
    = shapeCast S1x128 (m ((c.tc : Thread nD τ).loc main_arg8)) shapeCasts_S128_S1x128 := by
  rw [W5_unfold]
  dsimp only [hostOps0_4, hostOps0_3, hostOps0_2, hostOps0_1, hostOps0]
  after_results
  rfl

set_option maxHeartbeats 8000000 in
theorem bias10_reshaped (c : Dev nD) : W5 m ρ c (Proc.devRef .tc main_v22)
    = shapeCast S1x64 (m ((c.tc : Thread nD τ).loc main_arg10)) shapeCasts_S64_S1x64 := by
  rw [W5_unfold]
  dsimp only [hostOps0_4, hostOps0_3, hostOps0_2, hostOps0_1, hostOps0]
  after_results
  rfl

end AnyInstance

/-! ## On the extended reals -/

variable (m : (ℓ : Loc nD τ sig) → Buf (Elt Ideal) ℓ) (ρ : Dev nD → PrngReg)

/-- A vector reshaped into a column is the column of the vector. -/
theorem reshape_col (v : FVec Ideal S50000 .f32) :
    shapeCast S50000x1 v shapeCasts_S50000_S50000x1 = col (n := 50000) v := by
  funext i
  obtain ⟨p, u, rfl⟩ : ∃ (p : Fin 50000) (u : Fin 1), i = ix2 p u := ⟨i 0, i 1, eq_ix2 i⟩
  exact Cert.LibLayout.shapeCast_a_a1_apply v shapeCasts_S50000_S50000x1 p u

/-- The source-degree factors as a column. -/
theorem ns_col (c : Dev nD) : W5 m ρ c (Proc.devRef .tc main_v10)
    = col (n := 50000) (Cert.ReferenceIdeal.Read.val_main_v9 (F := Ideal) (m ((c.tc : Thread nD τ).loc main_arg1))) :=
  (ns_reshaped m ρ c).trans (reshape_col _)

/-- The target-degree factors as a column. -/
theorem nd_col (c : Dev nD) : W5 m ρ c (Proc.devRef .tc main_v14)
    = col (n := 50000) (Cert.ReferenceIdeal.Read.val_main_v12 (F := Ideal) (m ((c.tc : Thread nD τ).loc main_arg2))) :=
  (nd_reshaped m ρ c).trans (reshape_col _)

/-- The weights of argument 3, their format narrowed: the same extended reals. -/
theorem weights3 (c : Dev nD) : W5 m ρ c (Proc.devRef .tc main_v15) = (m ((c.tc : Thread nD τ).loc main_arg3)) :=
  (weights3_narrowed m ρ c).trans rfl

/-- The weights of argument 5, their format narrowed: the same extended reals. -/
theorem weights5 (c : Dev nD) : W5 m ρ c (Proc.devRef .tc main_v16) = (m ((c.tc : Thread nD τ).loc main_arg5)) :=
  (weights5_narrowed m ρ c).trans rfl

/-- The weights of argument 7, their format narrowed: the same extended reals. -/
theorem weights7 (c : Dev nD) : W5 m ρ c (Proc.devRef .tc main_v17) = (m ((c.tc : Thread nD τ).loc main_arg7)) :=
  (weights7_narrowed m ρ c).trans rfl

/-- The weights of argument 9, their format narrowed: the same extended reals. -/
theorem weights9 (c : Dev nD) : W5 m ρ c (Proc.devRef .tc main_v18) = (m ((c.tc : Thread nD τ).loc main_arg9)) :=
  (weights9_narrowed m ρ c).trans rfl

/-- A vector of length 256 reshaped into a row is the row of the vector. -/
theorem reshape_row4 (b : FVec Ideal S256 .f32) :
    shapeCast S1x256 b shapeCasts_S256_S1x256 = rowv (k := 256) b := by
  funext i
  obtain ⟨u, q, rfl⟩ : ∃ (u : Fin 1) (q : Fin 256), i = ix2 u q := ⟨i 0, i 1, eq_ix2 i⟩
  show shapeCast S1x256 b shapeCasts_S256_S1x256 (ix2 u q) = b (ix1 (n := 256) q)
  refine shapeCast_apply b shapeCasts_S256_S1x256 _ _ ?_
  rw [Shape.rowMajor_val_one, Shape.rowMajor_val_two]
  show q.val = u.val * 256 + q.val
  have hu : u.val = 0 := by omega
  rw [hu, Nat.zero_mul, Nat.zero_add]

/-- The bias of argument 4 as a row. -/
theorem bias_row4 (c : Dev nD) : W5 m ρ c (Proc.devRef .tc main_v19) = rowv (k := 256) (m ((c.tc : Thread nD τ).loc main_arg4)) :=
  (bias4_reshaped m ρ c).trans (reshape_row4 _)

/-- A vector of length 256 reshaped into a row is the row of the vector. -/
theorem reshape_row6 (b : FVec Ideal S256 .f32) :
    shapeCast S1x256 b shapeCasts_S256_S1x256 = rowv (k := 256) b := by
  funext i
  obtain ⟨u, q, rfl⟩ : ∃ (u : Fin 1) (q : Fin 256), i = ix2 u q := ⟨i 0, i 1, eq_ix2 i⟩
  show shapeCast S1x256 b shapeCasts_S256_S1x256 (ix2 u q) = b (ix1 (n := 256) q)
  refine shapeCast_apply b shapeCasts_S256_S1x256 _ _ ?_
  rw [Shape.rowMajor_val_one, Shape.rowMajor_val_two]
  show q.val = u.val * 256 + q.val
  have hu : u.val = 0 := by omega
  rw [hu, Nat.zero_mul, Nat.zero_add]

/-- The bias of argument 6 as a row. -/
theorem bias_row6 (c : Dev nD) : W5 m ρ c (Proc.devRef .tc main_v20) = rowv (k := 256) (m ((c.tc : Thread nD τ).loc main_arg6)) :=
  (bias6_reshaped m ρ c).trans (reshape_row6 _)

/-- A vector of length 128 reshaped into a row is the row of the vector. -/
theorem reshape_row8 (b : FVec Ideal S128 .f32) :
    shapeCast S1x128 b shapeCasts_S128_S1x128 = rowv (k := 128) b := by
  funext i
  obtain ⟨u, q, rfl⟩ : ∃ (u : Fin 1) (q : Fin 128), i = ix2 u q := ⟨i 0, i 1, eq_ix2 i⟩
  show shapeCast S1x128 b shapeCasts_S128_S1x128 (ix2 u q) = b (ix1 (n := 128) q)
  refine shapeCast_apply b shapeCasts_S128_S1x128 _ _ ?_
  rw [Shape.rowMajor_val_one, Shape.rowMajor_val_two]
  show q.val = u.val * 128 + q.val
  have hu : u.val = 0 := by omega
  rw [hu, Nat.zero_mul, Nat.zero_add]

/-- The bias of argument 8 as a row. -/
theorem bias_row8 (c : Dev nD) : W5 m ρ c (Proc.devRef .tc main_v21) = rowv (k := 128) (m ((c.tc : Thread nD τ).loc main_arg8)) :=
  (bias8_reshaped m ρ c).trans (reshape_row8 _)

/-- A vector of length 64 reshaped into a row is the row of the vector. -/
theorem reshape_row10 (b : FVec Ideal S64 .f32) :
    shapeCast S1x64 b shapeCasts_S64_S1x64 = rowv (k := 64) b := by
  funext i
  obtain ⟨u, q, rfl⟩ : ∃ (u : Fin 1) (q : Fin 64), i = ix2 u q := ⟨i 0, i 1, eq_ix2 i⟩
  show shapeCast S1x64 b shapeCasts_S64_S1x64 (ix2 u q) = b (ix1 (n := 64) q)
  refine shapeCast_apply b shapeCasts_S64_S1x64 _ _ ?_
  rw [Shape.rowMajor_val_one, Shape.rowMajor_val_two]
  show q.val = u.val * 64 + q.val
  have hu : u.val = 0 := by omega
  rw [hu, Nat.zero_mul, Nat.zero_add]

/-- The bias of argument 10 as a row. -/
theorem bias_row10 (c : Dev nD) : W5 m ρ c (Proc.devRef .tc main_v22) = rowv (k := 64) (m ((c.tc : Thread nD τ).loc main_arg10)) :=
  (bias10_reshaped m ρ c).trans (reshape_row10 _)

end Cert.KernelIdeal.Chain

end
-- ==== Proof.RefLayers.lean ====
/-
  The reference program's layers as row operations.

  Each of the reference's four layers scales the rows of its input by the source-degree factors and multiplies by the
  weights (one general dot product, contracting the input's columns with the weights' rows); gathers and sums over
  the edges; then scales the rows of the aggregate by the target-degree factors and adds the bias, the first two
  layers taking the positive part after that. The degree factors reach the arrays through two broadcasts (a vector
  to a column, the column along the rows), the bias likewise (a vector to a row, the row along the columns): read at
  an entry `(r, k)` they are the factor of row `r` and the bias of column `k`. So every stage is one of the row
  operations `scaleRows`, `biased`, `positive` or the product rows by columns, of the stage before it.
-/
import proofs.«175314_j64630667870457_1_alg».proof.Proof.Gen.ReferenceIdeal.Read
import proofs.«175314_j64630667870457_1_alg».proof.Proof.LibGcnRows

set_option maxRecDepth 16384

noncomputable section

namespace Cert.ReferenceIdeal.Layers

open Cert.ReferenceIdeal Cert.ReferenceIdeal.Read
open Idealize.ShloMosaic Idealize.ShloMosaic.ValueIdx Idealize.ShloMosaic.PlainProduct Cert.GcnRows

variable (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal))

/-- Layer 1's transform: the input's rows scaled by the source-degree factors, rows by the weights' columns. -/
theorem transform1 : val_main_v16 x0 x1 x3
    = rowsByCols (φ₂ := .f32) (scaleRows (R := 50000) (K := 512) x0 (col (val_main_v9 x1))) x3 := by
  unfold val_main_v16
  simp only [Host.dotGeneral]
  refine (dotGeneral_plain (M := 50000) (K := 512) (N := 256) none _ (val_main_v15 x0 x1) x3).trans ?_
  refine congrArg (fun z => rowsByCols (φ₂ := .f32) (M := 50000) (K := 512) (N := 256) z x3) ?_
  funext j
  have e1 : idx_main_v13 (idx_main_v14 j) = ix1 (n := 50000) (j 0) := funext fun a => Fin.ext (by match a with | ⟨0, _⟩ => rfl)
  rw [val_main_v15_apply, val_main_v14_apply, val_main_v13_apply, e1]
  rfl

/-- Layer 1's bias step: the aggregate's rows scaled by the target-degree factors, plus the bias, positive part. -/
theorem bias1 : val_main_v33 x0 x1 x2 x3 x4
    = positive (R := 50000) (K := 256) (biased (R := 50000) (K := 256) (val_main_v26 x0 x1 x2 x3) (col (val_main_v12 x2)) (rowv x4)) := by
  funext j
  have e1 : idx_main_v27 (idx_main_v28 j) = ix1 (n := 50000) (j 0) := funext fun a => Fin.ext (by match a with | ⟨0, _⟩ => rfl)
  have e2 : idx_main_v30 (idx_main_v31 j) = ix1 (n := 256) (j 1) := funext fun a => Fin.ext (by match a with | ⟨0, _⟩ => rfl)
  rw [val_main_v33_apply, val_main_v32_apply, val_main_v29_apply, val_main_v28_apply, val_main_v27_apply, val_main_v31_apply, val_main_v30_apply, e1, e2]
  rfl

/-- Layer 2's transform: the input's rows scaled by the source-degree factors, rows by the weights' columns. -/
theorem transform2 : val_main_v37 x0 x1 x2 x3 x4 x5
    = rowsByCols (φ₂ := .f32) (scaleRows (R := 50000) (K := 256) (val_main_v33 x0 x1 x2 x3 x4) (col (val_main_v9 x1))) x5 := by
  unfold val_main_v37
  simp only [Host.dotGeneral]
  refine (dotGeneral_plain (M := 50000) (K := 256) (N := 256) none _ (val_main_v36 x0 x1 x2 x3 x4) x5).trans ?_
  refine congrArg (fun z => rowsByCols (φ₂ := .f32) (M := 50000) (K := 256) (N := 256) z x5) ?_
  funext j
  have e1 : idx_main_v34 (idx_main_v35 j) = ix1 (n := 50000) (j 0) := funext fun a => Fin.ext (by match a with | ⟨0, _⟩ => rfl)
  rw [val_main_v36_apply, val_main_v35_apply, val_main_v34_apply, e1]
  rfl

/-- Layer 2's bias step: the aggregate's rows scaled by the target-degree factors, plus the bias, positive part. -/
theorem bias2 : val_main_v54 x0 x1 x2 x3 x4 x5 x6
    = positive (R := 50000) (K := 256) (biased (R := 50000) (K := 256) (val_main_v47 x0 x1 x2 x3 x4 x5) (col (val_main_v12 x2)) (rowv x6)) := by
  funext j
  have e1 : idx_main_v48 (idx_main_v49 j) = ix1 (n := 50000) (j 0) := funext fun a => Fin.ext (by match a with | ⟨0, _⟩ => rfl)
  have e2 : idx_main_v51 (idx_main_v52 j) = ix1 (n := 256) (j 1) := funext fun a => Fin.ext (by match a with | ⟨0, _⟩ => rfl)
  rw [val_main_v54_apply, val_main_v53_apply, val_main_v50_apply, val_main_v49_apply, val_main_v48_apply, val_main_v52_apply, val_main_v51_apply, e1, e2]
  rfl

/-- Layer 3's transform: the input's rows scaled by the source-degree factors, rows by the weights' columns. -/
theorem transform3 : val_main_v58 x0 x1 x2 x3 x4 x5 x6 x7
    = rowsByCols (φ₂ := .f32) (scaleRows (R := 50000) (K := 256) (val_main_v54 x0 x1 x2 x3 x4 x5 x6) (col (val_main_v9 x1))) x7 := by
  unfold val_main_v58
  simp only [Host.dotGeneral]
  refine (dotGeneral_plain (M := 50000) (K := 256) (N := 128) none _ (val_main_v57 x0 x1 x2 x3 x4 x5 x6) x7).trans ?_
  refine congrArg (fun z => rowsByCols (φ₂ := .f32) (M := 50000) (K := 256) (N := 128) z x7) ?_
  funext j
  have e1 : idx_main_v55 (idx_main_v56 j) = ix1 (n := 50000) (j 0) := funext fun a => Fin.ext (by match a with | ⟨0, _⟩ => rfl)
  rw [val_main_v57_apply, val_main_v56_apply, val_main_v55_apply, e1]
  rfl

/-- Layer 3's bias step: the aggregate's rows scaled by the target-degree factors, plus the bias. -/
theorem bias3 : val_main_v74 x0 x1 x2 x3 x4 x5 x6 x7 x8
    = biased (R := 50000) (K := 128) (val_main_v68 x0 x1 x2 x3 x4 x5 x6 x7) (col (val_main_v12 x2)) (rowv x8) := by
  funext j
  have e1 : idx_main_v69 (idx_main_v70 j) = ix1 (n := 50000) (j 0) := funext fun a => Fin.ext (by match a with | ⟨0, _⟩ => rfl)
  have e2 : idx_main_v72 (idx_main_v73 j) = ix1 (n := 128) (j 1) := funext fun a => Fin.ext (by match a with | ⟨0, _⟩ => rfl)
  rw [val_main_v74_apply, val_main_v71_apply, val_main_v70_apply, val_main_v69_apply, val_main_v73_apply, val_main_v72_apply, e1, e2]
  rfl

/-- Layer 4's transform: the input's rows scaled by the source-degree factors, rows by the weights' columns. -/
theorem transform4 : val_main_v78 x0 x1 x2 x3 x4 x5 x6 x7 x8 x9
    = rowsByCols (φ₂ := .f32) (scaleRows (R := 50000) (K := 128) (val_main_v74 x0 x1 x2 x3 x4 x5 x6 x7 x8) (col (val_main_v9 x1))) x9 := by
  unfold val_main_v78
  simp only [Host.dotGeneral]
  refine (dotGeneral_plain (M := 50000) (K := 128) (N := 64) none _ (val_main_v77 x0 x1 x2 x3 x4 x5 x6 x7 x8) x9).trans ?_
  refine congrArg (fun z => rowsByCols (φ₂ := .f32) (M := 50000) (K := 128) (N := 64) z x9) ?_
  funext j
  have e1 : idx_main_v75 (idx_main_v76 j) = ix1 (n := 50000) (j 0) := funext fun a => Fin.ext (by match a with | ⟨0, _⟩ => rfl)
  rw [val_main_v77_apply, val_main_v76_apply, val_main_v75_apply, e1]
  rfl

/-- Layer 4's bias step: the aggregate's rows scaled by the target-degree factors, plus the bias. -/
theorem bias4 : val_main_v94 x0 x1 x2 x3 x4 x5 x6 x7 x8 x9 x10
    = biased (R := 50000) (K := 64) (val_main_v88 x0 x1 x2 x3 x4 x5 x6 x7 x8 x9) (col (val_main_v12 x2)) (rowv x10) := by
  funext j
  have e1 : idx_main_v89 (idx_main_v90 j) = ix1 (n := 50000) (j 0) := funext fun a => Fin.ext (by match a with | ⟨0, _⟩ => rfl)
  have e2 : idx_main_v92 (idx_main_v93 j) = ix1 (n := 64) (j 1) := funext fun a => Fin.ext (by match a with | ⟨0, _⟩ => rfl)
  rw [val_main_v94_apply, val_main_v91_apply, val_main_v90_apply, val_main_v89_apply, val_main_v93_apply, val_main_v92_apply, e1, e2]
  rfl

end Cert.ReferenceIdeal.Layers

end
-- ==== Proof.KChain.lean ====
/-
  The kernel program's fold, stage by stage, in the reference's stages.

  After the first region the output array holds layer one's transform of the reference; the host operations that
  follow gather and sum it over the edges exactly as the reference does, so the aggregate is the reference's; the next
  region adds layer one's bias, takes the positive part and applies layer two's transform — the reference's next
  stages — and so on through the four layers. The first result is the third layer's biased aggregate, written by the
  fourth region and untouched afterwards; the second result is the fourth layer's, written by the last region.
-/
import proofs.«175314_j64630667870457_1_alg».proof.Proof.Region0
import proofs.«175314_j64630667870457_1_alg».proof.Proof.Region1
import proofs.«175314_j64630667870457_1_alg».proof.Proof.Region2
import proofs.«175314_j64630667870457_1_alg».proof.Proof.Region3
import proofs.«175314_j64630667870457_1_alg».proof.Proof.Region4
import proofs.«175314_j64630667870457_1_alg».proof.Proof.KCarried
import proofs.«175314_j64630667870457_1_alg».proof.Proof.KStage5
import proofs.«175314_j64630667870457_1_alg».proof.Proof.RefLayers

set_option maxRecDepth 16384

noncomputable section

namespace Cert.KernelIdeal.Chain

open Cert.KernelIdeal Cert.KernelIdeal.Gen Cert.KernelIdeal.Layers
open Cert.ReferenceIdeal.Read Cert.ReferenceIdeal.Layers
open Idealize.ShloMosaic Idealize.ShloMosaic.TcCoe Idealize.ShloMosaic.StableHlo Idealize.ShloMosaic.ValueIdx Idealize.ShloMosaic.PlainProduct Cert.GcnRows
open Idealize.SL.Sem

section AnyInstance

variable {F : FTy → Type} [FloatOps F]
variable (m : (ℓ : Loc nD τ sig) → Buf (Elt F) ℓ) (ρ : Dev nD → PrngReg)

set_option maxHeartbeats 4000000 in
/-- The host operations after region 0 gather its output along the sources and sum at the targets: the reference's
    operations, on what they find. -/
theorem agg1_ops (c : Dev nD) : W7 m ρ c (Proc.devRef .tc main_v33)
    = Host.scatterAdd (F := F) Cert.ReferenceIdeal.scatter_S50000x256_S800000x1_S800000x256_1_0_0_1 (val_main_v24 (F := F))
        (val_main_v25 (F := F) (W6 m ρ c (Proc.devRef .tc main_arg2)))
        (Host.gather Cert.ReferenceIdeal.gather_S50000x256_S800000x1_S800000x256_1_0_n_n_0_1_1256 ((W6 m ρ c (Proc.devRef .tc main_v23)) : (⟨Cert.ReferenceIdeal.S50000x256, .f32⟩ : BufTy).Contents (Elt F))
          (val_main_v22 (F := F) (W6 m ρ c (Proc.devRef .tc main_arg1)))) := by
  show StableHlo.after hostOps1 (W6 m ρ c) (Proc.devRef .tc main_v33) = _
  dsimp only [hostOps1]
  after_results
  rfl

set_option maxHeartbeats 4000000 in
/-- The host operations after region 1 gather its output along the sources and sum at the targets: the reference's
    operations, on what they find. -/
theorem agg2_ops (c : Dev nD) : W9 m ρ c (Proc.devRef .tc main_v44)
    = Host.scatterAdd (F := F) Cert.ReferenceIdeal.scatter_S50000x256_S800000x1_S800000x256_1_0_0_1 (val_main_v45 (F := F))
        (val_main_v46 (F := F) (W8 m ρ c (Proc.devRef .tc main_arg2)))
        (Host.gather Cert.ReferenceIdeal.gather_S50000x256_S800000x1_S800000x256_1_0_n_n_0_1_1256 ((W8 m ρ c (Proc.devRef .tc main_v34)) : (⟨Cert.ReferenceIdeal.S50000x256, .f32⟩ : BufTy).Contents (Elt F))
          (val_main_v43 (F := F) (W8 m ρ c (Proc.devRef .tc main_arg1)))) := by
  show StableHlo.after hostOps2 (W8 m ρ c) (Proc.devRef .tc main_v44) = _
  dsimp only [hostOps2]
  after_results
  rfl

set_option maxHeartbeats 4000000 in
/-- The host operations after region 2 gather its output along the sources and sum at the targets: the reference's
    operations, on what they find. -/
theorem agg3_ops (c : Dev nD) : W11 m ρ c (Proc.devRef .tc main_v55)
    = Host.scatterAdd (F := F) Cert.ReferenceIdeal.scatter_S50000x128_S800000x1_S800000x128_1_0_0_1 (val_main_v66 (F := F))
        (val_main_v67 (F := F) (W10 m ρ c (Proc.devRef .tc main_arg2)))
        (Host.gather Cert.ReferenceIdeal.gather_S50000x128_S800000x1_S800000x128_1_0_n_n_0_1_1128 ((W10 m ρ c (Proc.devRef .tc main_v45)) : (⟨Cert.ReferenceIdeal.S50000x128, .f32⟩ : BufTy).Contents (Elt F))
          (val_main_v64 (F := F) (W10 m ρ c (Proc.devRef .tc main_arg1)))) := by
  show StableHlo.after hostOps3 (W10 m ρ c) (Proc.devRef .tc main_v55) = _
  dsimp only [hostOps3]
  after_results
  rfl

set_option maxHeartbeats 4000000 in
/-- The host operations after region 3 gather its output along the sources and sum at the targets: the reference's
    operations, on what they find. -/
theorem agg4_ops (c : Dev nD) : W13 m ρ c (Proc.devRef .tc main_v66)
    = Host.scatterAdd (F := F) Cert.ReferenceIdeal.scatter_S50000x64_S800000x1_S800000x64_1_0_0_1 (val_main_v86 (F := F))
        (val_main_v87 (F := F) (W12 m ρ c (Proc.devRef .tc main_arg2)))
        (Host.gather Cert.ReferenceIdeal.gather_S50000x64_S800000x1_S800000x64_1_0_n_n_0_1_164 ((W12 m ρ c (Proc.devRef .tc main_v56_1)) : (⟨Cert.ReferenceIdeal.S50000x64, .f32⟩ : BufTy).Contents (Elt F))
          (val_main_v84 (F := F) (W12 m ρ c (Proc.devRef .tc main_arg1)))) := by
  show StableHlo.after hostOps4 (W12 m ρ c) (Proc.devRef .tc main_v66) = _
  dsimp only [hostOps4]
  after_results
  rfl

end AnyInstance

variable (m : (ℓ : Loc nD τ sig) → Buf (Elt Ideal) ℓ) (ρ : Dev nD → PrngReg)

set_option maxHeartbeats 4000000 in
/-- Region 0 leaves layer one's transform. -/
theorem out0 (c : Dev nD) : W6 m ρ c (Proc.devRef .tc main_v23) = val_main_v16 (F := Ideal) (m ((c.tc : Thread nD τ).loc main_arg0)) (m ((c.tc : Thread nD τ).loc main_arg1)) (m ((c.tc : Thread nD τ).loc main_arg3)) := by
  refine (W6_arr m ρ c 3).trans ((final0_3 (V5 m ρ) c).trans ?_)
  show rowsByCols (φ₂ := .bf16) (scaleRows (R := 50000) (K := 512) (W5 m ρ c (Proc.devRef .tc main_arg0)) (W5 m ρ c (Proc.devRef .tc main_v10))) (W5 m ρ c (Proc.devRef .tc main_v15)) = _
  rw [Carried.arg0_at5 m ρ c, ns_col m ρ c, weights3 m ρ c, transform1]
  rfl

/-- The aggregate after region 0 is the reference's: its operand and the two index arrays are. -/
theorem agg1 (c : Dev nD) : W7 m ρ c (Proc.devRef .tc main_v33)
    = val_main_v26 (F := Ideal) (m ((c.tc : Thread nD τ).loc main_arg0)) (m ((c.tc : Thread nD τ).loc main_arg1)) (m ((c.tc : Thread nD τ).loc main_arg2)) (m ((c.tc : Thread nD τ).loc main_arg3)) := by
  rw [agg1_ops, out0 m ρ c, Carried.arg1_at6 m ρ c, Carried.arg2_at6 m ρ c]
  rfl

set_option maxHeartbeats 4000000 in
/-- Region 1 leaves layer two's transform of layer one's output. -/
theorem out1 (c : Dev nD) : W8 m ρ c (Proc.devRef .tc main_v34) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 5).trans ((final1_5 (V7 m ρ) c).trans ?_)
  show rowsByCols (φ₂ := .bf16) (scaleRows (R := 50000) (K := 256) (positive (R := 50000) (K := 256) (biased (R := 50000) (K := 256) (W7 m ρ c (Proc.devRef .tc main_v33)) (W7 m ρ c (Proc.devRef .tc main_v14)) (W7 m ρ c (Proc.devRef .tc main_v19)))) (W7 m ρ c (Proc.devRef .tc main_v10))) (W7 m ρ c (Proc.devRef .tc main_v16)) = _
  rw [agg1 m ρ c, Carried.v14_at7 m ρ c, Carried.v19_at7 m ρ c, Carried.v10_at7 m ρ c, Carried.v16_at7 m ρ c, nd_col m ρ c, bias_row4 m ρ c, ns_col m ρ c, weights5 m ρ c, transform2, bias1]
  rfl

/-- The aggregate after region 1 is the reference's: its operand and the two index arrays are. -/
theorem agg2 (c : Dev nD) : W9 m ρ c (Proc.devRef .tc main_v44)
    = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [agg2_ops, out1 m ρ c, Carried.arg1_at8 m ρ c, Carried.arg2_at8 m ρ c]
  rfl

set_option maxHeartbeats 4000000 in
/-- Region 2 leaves layer three's transform of layer two's output. -/
theorem out2 (c : Dev nD) : W10 m ρ c (Proc.devRef .tc main_v45) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W10_arr m ρ c 5).trans ((final2_5 (V9 m ρ) c).trans ?_)
  show rowsByCols (φ₂ := .bf16) (scaleRows (R := 50000) (K := 256) (positive (R := 50000) (K := 256) (biased (R := 50000) (K := 256) (W9 m ρ c (Proc.devRef .tc main_v44)) (W9 m ρ c (Proc.devRef .tc main_v14)) (W9 m ρ c (Proc.devRef .tc main_v20)))) (W9 m ρ c (Proc.devRef .tc main_v10))) (W9 m ρ c (Proc.devRef .tc main_v17)) = _
  rw [agg2 m ρ c, Carried.v14_at9 m ρ c, Carried.v20_at9 m ρ c, Carried.v10_at9 m ρ c, Carried.v17_at9 m ρ c, nd_col m ρ c, bias_row6 m ρ c, ns_col m ρ c, weights7 m ρ c, transform3, bias2]
  rfl

/-- The aggregate after region 2 is the reference's: its operand and the two index arrays are. -/
theorem agg3 (c : Dev nD) : W11 m ρ c (Proc.devRef .tc main_v55)
    = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [agg3_ops, out2 m ρ c, Carried.arg1_at10 m ρ c, Carried.arg2_at10 m ρ c]
  rfl

set_option maxHeartbeats 4000000 in
/-- Region 3's first output: layer three's biased aggregate, the first result. -/
theorem res0_at12 (c : Dev nD) : W12 m ρ c (Proc.devRef .tc main_v56_0) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W12_arr m ρ c 5).trans ((final3_5 (V11 m ρ) c).trans ?_)
  show biased (R := 50000) (K := 128) (W11 m ρ c (Proc.devRef .tc main_v55)) (W11 m ρ c (Proc.devRef .tc main_v14)) (W11 m ρ c (Proc.devRef .tc main_v21)) = _
  rw [agg3 m ρ c, Carried.v14_at11 m ρ c, Carried.v21_at11 m ρ c, nd_col m ρ c, bias_row8 m ρ c, bias3]

set_option maxHeartbeats 4000000 in
/-- Region 3's second output: layer four's transform of it. -/
theorem out3 (c : Dev nD) : W12 m ρ c (Proc.devRef .tc main_v56_1) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W12_arr m ρ c 6).trans ((final3_6 (V11 m ρ) c).trans ?_)
  show rowsByCols (φ₂ := .bf16) (scaleRows (R := 50000) (K := 128) (biased (R := 50000) (K := 128) (W11 m ρ c (Proc.devRef .tc main_v55)) (W11 m ρ c (Proc.devRef .tc main_v14)) (W11 m ρ c (Proc.devRef .tc main_v21))) (W11 m ρ c (Proc.devRef .tc main_v10))) (W11 m ρ c (Proc.devRef .tc main_v18)) = _
  rw [agg3 m ρ c, Carried.v14_at11 m ρ c, Carried.v21_at11 m ρ c, Carried.v10_at11 m ρ c, Carried.v18_at11 m ρ c, nd_col m ρ c, bias_row8 m ρ c, ns_col m ρ c, weights9 m ρ c, transform4, bias3]
  rfl

/-- The aggregate after region 3 is the reference's: its operand and the two index arrays are. -/
theorem agg4 (c : Dev nD) : W13 m ρ c (Proc.devRef .tc main_v66)
    = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [agg4_ops, out3 m ρ c, Carried.arg1_at12 m ρ c, Carried.arg2_at12 m ρ c]
  rfl

set_option maxHeartbeats 4000000 in
/-- The second result: layer four's biased aggregate, left by the last region. -/
theorem res1 (c : Dev nD) : W14 m ρ c (Proc.devRef .tc main_v67) = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W14_arr m ρ c 3).trans ((final4_3 (V13 m ρ) c).trans ?_)
  show biased (R := 50000) (K := 64) (W13 m ρ c (Proc.devRef .tc main_v66)) (W13 m ρ c (Proc.devRef .tc main_v14)) (W13 m ρ c (Proc.devRef .tc main_v22)) = _
  rw [agg4 m ρ c, Carried.v14_at13 m ρ c, Carried.v22_at13 m ρ c, nd_col m ρ c, bias_row10 m ρ c, bias4]

/-- The first result is not touched after the region that writes it. -/
theorem res0 (c : Dev nD) : W14 m ρ c (Proc.devRef .tc main_v56_0) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Carried.v56_0_at14 m ρ c).trans (res0_at12 m ρ c)

end Cert.KernelIdeal.Chain

end
-- ==== Proof.lean ====
/-
  A four-layer graph convolution on 50000 nodes and 800000 edges: the tiled kernel program against the plain reference,
  equal on the extended reals.

  Both programs compute, per layer, `D_in^(-1/2) · A · (D_out^(-1/2) · h · W) + b` (the first two layers followed by
  the positive part): the rows of `h` scaled by the source-degree factors and multiplied by the weights, gathered along
  the edges' sources and summed at their targets, the rows of the sum scaled by the target-degree factors, plus the
  bias. The degree factors are `max(deg, 1)^(-1/2)` of the edge counts. The kernel program does the degree counts and
  the gather-and-sum on the host, with the reference's very operations, and every dense step — a layer's bias (and
  positive part) fused with the next layer's transform — in a grid region, one block of 2000 node rows per grid point
  with the bias row and the whole weight matrix shared by all points.

  Why the two agree entry by entry. A dense step computes row `r` of its result from row `r` of its row-blocked
  operands only, so a block of rows computed from blocks of rows is that block of the whole-array operation, and the 25
  blocks tile the 50000 rows. The kernel narrows the format of the scaled rows and of the weights before its product and
  accumulates from zero; on the extended reals a format change is the identity and both products are the one finite sum
  `Σ_k x (r, k) · w (k, c)`. No sum is distributed over a product and no factor is cancelled anywhere, so the argument
  never uses that the inputs are finite. The results are returned in the same order: layer three's biased aggregate,
  then layer four's.

  The pieces: `KRun` (the kernel program's run with both results named), `Region0`–`Region4` (each region's output
  array as a whole-array row operation, over `LibGcnRows`), `KCarried` and `KStage5` (the buffers the regions share),
  `RefLayers` (the reference's stages as the same row operations), `KChain` (the two programs stage by stage).
-/
import proofs.«175314_j64630667870457_1_alg».proof.Defs
import proofs.«175314_j64630667870457_1_alg».proof.Proof.Gen.Kernel
import proofs.«175314_j64630667870457_1_alg».proof.Proof.Gen.Kernel.Skeleton
import proofs.«175314_j64630667870457_1_alg».proof.Proof.Gen.Kernel.Launch
import proofs.«175314_j64630667870457_1_alg».proof.Proof.Gen.Kernel.Points
import proofs.«175314_j64630667870457_1_alg».proof.Proof.Gen.Kernel.Frame
import proofs.«175314_j64630667870457_1_alg».proof.Proof.Gen.KernelIdeal
import proofs.«175314_j64630667870457_1_alg».proof.Proof.Gen.KernelIdeal.Skeleton
import proofs.«175314_j64630667870457_1_alg».proof.Proof.Gen.KernelIdeal.Launch
import proofs.«175314_j64630667870457_1_alg».proof.Proof.Gen.KernelIdeal.Points
import proofs.«175314_j64630667870457_1_alg».proof.Proof.Gen.KernelIdeal.Frame
import proofs.«175314_j64630667870457_1_alg».proof.Proof.Gen.ReferenceIdeal
import proofs.«175314_j64630667870457_1_alg».proof.Proof.Gen.Pre_finite_inputs
import proofs.«175314_j64630667870457_1_alg».proof.Proof.Gen.ReferenceIdeal.Run
import proofs.«175314_j64630667870457_1_alg».proof.Proof.Gen.ReferenceIdeal.Read
import proofs.«175314_j64630667870457_1_alg».proof.Proof.KRun
import proofs.«175314_j64630667870457_1_alg».proof.Proof.KChain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- So does the idealized kernel program. -/
theorem frame_kernelIdeal [Cert.KernelIdeal.Facts] [Cert.Pre_finite_inputs.Facts] : Cert.frame_KernelIdeal :=
  fun m ρ _ => Cert.KernelIdeal.Gen.frame m ρ

/-- The reference is host operations only: its run with the two results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The idealization rewrote no operation: nothing to preserve. -/
theorem preserves : Cert.preserves_Kernel_KernelIdeal := trivial

/-- From memories agreeing on the arguments both programs end with the reference's two last stages of those
    arguments: the kernel program by the chain of its segments, the reference by its own run. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.res0 m ρ c), (h c).2.1.trans (Cert.KernelIdeal.Chain.res1 m ρ c), (h c).2.2⟩)
      (Cert.KernelIdeal.Named.run (F := Ideal) m ρ)
  · refine (θ_run Cert.ReferenceIdeal.defs _ _).mono (fun r h c => ⟨?_, ?_, (h c).2.2⟩)
      (Cert.ReferenceIdeal.Value.run (F := Ideal) m' ρ')
    · obtain ⟨a0, a1, a2, a3, a4, a5, a6, a7, a8, a9, a10⟩ := hagree c
      rw [(h c).1, Cert.ReferenceIdeal.Read.val_main_v74_eq, a0, a1, a2, a3, a4, a5, a6, a7, a8]
    · obtain ⟨a0, a1, a2, a3, a4, a5, a6, a7, a8, a9, a10⟩ := hagree c
      rw [(h c).2.1, Cert.ReferenceIdeal.Read.val_main_v94_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
